-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S2x1x4096 : Shape := ⟨3, ![2, 1, 4096]⟩
abbrev S16384x512 : Shape := ⟨2, ![16384, 512]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S2x1x4096 : S_.BroadcastsInDim S2x1x4096 (![] : Fin 0 → Fin S2x1x4096.rank)
  reducesTo_S2x1x4096_S_d0_1_2 : S2x1x4096.ReducesTo [0, 1, 2] S_
  bcast_S_S16384x512 : S_.BroadcastsInDim S16384x512 (![] : Fin 0 → Fin S16384x512.rank)
  reducesTo_S16384x512_S_d0_1 : S16384x512.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S1x4096 .f32) (main_arg12 : FVec F S1 .f32) (main_arg13 : FVec F S1x4096 .f32) (main_arg14 : FVec F S1 .f32) (main_v48 : IVec S_ 1) (main_v49 : FVec F S16384 .f32) (main_v50 : FVec F S16384 .f32) : IVec S_ 1 :=
  let main_v51 : IVec S16384 1 := cmpf .olt main_v49 main_v50
  let main_c_19 : IVec S_ 1 := constantI S_ 1 1#1
  let main_v52 : IVec S_ 1 := (fun x v => Host.reduce IntOp.andi x v reducesTo_S16384_S_d0 h_S_) main_v51 main_c_19
  let main_v53 : IVec S_ 1 := andi main_v48 main_v52
  let main_v54 : FVec F S1x4096 .f32 := Host.absf main_arg11
  let main_cst_20 : FVec F S_ .f32 := constant S_ .f32 0x7F800000#32
  let main_v55 : FVec F S1x4096 .f32 := broadcastInDim S1x4096 ![] bcast_S_S1x4096 main_cst_20
  let main_v56 : IVec S1x4096 1 := cmpf .olt main_v54 main_v55
  let main_c_21 : IVec S_ 1 := constantI S_ 1 1#1
  let main_v57 : IVec S_ 1 := (fun x v => Host.reduce IntOp.andi x v reducesTo_S1x4096_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x4096 .f32 := Host.absf main_arg13
  let main_cst_24 : FVec F S_ .f32 := constant S_ .f32 0x7F800000#32
  let main_v65 : FVec F S1x4096 .f32 := broadcastInDim S1x4096 ![] bcast_S_S1x4096 main_cst_24
  let main_v66 : IVec S1x4096 1 := cmpf .olt main_v64 main_v65
  let main_c_25 : IVec S_ 1 := constantI S_ 1 1#1
  let main_v67 : IVec S_ 1 := (fun x v => Host.reduce IntOp.andi x v reducesTo_S1x4096_S_d0_1 h_S_) main_v66 main_c_25
  fn_part4 (F := F) main_arg14 main_v63 main_v67

def fn_part2 {F : FTy → Type} [FloatOps F] (main_arg7 : FVec F S16384x4096 .f32) (main_arg8 : FVec F S16384x4096 .f32) (main_arg9 : FVec F S16384 .f32) (main_arg10 : FVec F S16384 .f32) (main_arg11 : FVec F S1x4096 .f32) (main_arg12 : FVec F S1 .f32) (main_arg13 : FVec F S1x4096 .f32) (main_arg14 : FVec F S1 .f32) (main_v33 : IVec S_ 1) : IVec S_ 1 :=
  let main_v34 : FVec F S16384x4096 .f32 := Host.absf main_arg7
  let main_cst_12 : FVec F S_ .f32 := constant S_ .f32 0x7F800000#32
  let main_v35 : FVec F S16384x4096 .f32 := broadcastInDim S16384x4096 ![] bcast_S_S16384x4096 main_cst_12
  let main_v36 : IVec S16384x4096 1 := cmpf .olt main_v34 main_v35
  let main_c_13 : IVec S_ 1 := constantI S_ 1 1#1
  let main_v37 : IVec S_ 1 := (fun x v => Host.reduce IntOp.andi x v reducesTo_S16384x4096_S_d0_1 h_S_) main_v36 main_c_13
  let main_v38 : IVec S_ 1 := andi main_v33 main_v37
  let main_v39 : FVec F S16384x4096 .f32 := Host.absf main_arg8
  let main_cst_14 : FVec F S_ .f32 := constant S_ .f32 0x7F800000#32
  let main_v40 : FVec F S16384x4096 .f32 := broadcastInDim S16384x4096 ![] bcast_S_S16384x4096 main_cst_14
  let main_v41 : IVec S16384x4096 1 := cmpf .olt main_v39 main_v40
  let main_c_15 : IVec S_ 1 := constantI S_ 1 1#1
  let main_v42 : IVec S_ 1 := (fun x v => Host.reduce IntOp.andi x v reducesTo_S16384x4096_S_d0_1 h_S_) main_v41 main_c_15
  let main_v43 : IVec S_ 1 := andi main_v38 main_v42
  let main_v44 : FVec F S16384 .f32 := Host.absf main_arg9
  let main_cst_16 : FVec F S_ .f32 := constant S_ .f32 0x7F800000#32
  let main_v45 : FVec F S16384 .f32 := broadcastInDim S16384 ![] bcast_S_S16384 main_cst_16
  let main_v46 : IVec S16384 1 := cmpf .olt main_v44 main_v45
  let main_c_17 : IVec S_ 1 := constantI S_ 1 1#1
  let main_v47 : IVec S_ 1 := (fun x v => Host.reduce IntOp.andi x v reducesTo_S16384_S_d0 h_S_) main_v46 main_c_17
  let main_v48 : IVec S_ 1 := andi main_v43 main_v47
  let main_v49 : FVec F S16384 .f32 := Host.absf main_arg10
  let main_cst_18 : FVec F S_ .f32 := constant S_ .f32 0x7F800000#32
  let main_v50 : FVec F S16384 .f32 := broadcastInDim S16384 ![] bcast_S_S16384 main_cst_18
  fn_part3 (F := F) main_arg11 main_arg12 main_arg13 main_arg14 main_v48 main_v49 main_v50

def fn_part1 {F : FTy → Type} [FloatOps F] (main_arg4 : FVec F S16384x4096 .f32) (main_arg5 : FVec F S16384 .f32) (main_arg6 : FVec F S16384 .f32) (main_arg7 : FVec F S16384x4096 .f32) (main_arg8 : FVec F S16384x4096 .f32) (main_arg9 : FVec F S16384 .f32) (main_arg10 : FVec F S16384 .f32) (main_arg11 : FVec F S1x4096 .f32) (main_arg12 : FVec F S1 .f32) (main_arg13 : FVec F S1x4096 .f32) (main_arg14 : FVec F S1 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x4096 .f32 := Host.absf main_arg4
  let main_cst_6 : FVec F S_ .f32 := constant S_ .f32 0x7F800000#32
  let main_v20 : FVec F S16384x4096 .f32 := broadcastInDim S16384x4096 ![] bcast_S_S16384x4096 main_cst_6
  let main_v21 : IVec S16384x4096 1 := cmpf .olt main_v19 main_v20
  let main_c_7 : IVec S_ 1 := constantI S_ 1 1#1
  let main_v22 : IVec S_ 1 := (fun x v => Host.reduce IntOp.andi x v reducesTo_S16384x4096_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S16384 .f32 := Host.absf main_arg6
  let main_cst_10 : FVec F S_ .f32 := constant S_ .f32 0x7F800000#32
  let main_v30 : FVec F S16384 .f32 := broadcastInDim S16384 ![] bcast_S_S16384 main_cst_10
  let main_v31 : IVec S16384 1 := cmpf .olt main_v29 main_v30
  let main_c_11 : IVec S_ 1 := constantI S_ 1 1#1
  let main_v32 : IVec S_ 1 := (fun x v => Host.reduce IntOp.andi x v reducesTo_S16384_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S512 .f32) (main_arg1 : FVec F S2x1x4096 .f32) (main_arg2 : FVec F S2x1x4096 .f32) (main_arg3 : FVec F S16384x512 .f32) (main_arg4 : FVec F S16384x4096 .f32) (main_arg5 : FVec F S16384 .f32) (main_arg6 : FVec F S16384 .f32) (main_arg7 : FVec F S16384x4096 .f32) (main_arg8 : FVec F S16384x4096 .f32) (main_arg9 : FVec F S16384 .f32) (main_arg10 : FVec F S16384 .f32) (main_arg11 : FVec F S1x4096 .f32) (main_arg12 : FVec F S1 .f32) (main_arg13 : FVec F S1x4096 .f32) (main_arg14 : FVec F S1 .f32) : IVec S_ 1 :=
  let main_v0 : FVec F S512 .f32 := Host.absf main_arg0
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S2x1x4096 .f32 := Host.absf main_arg1
  let main_cst_0 : FVec F S_ .f32 := constant S_ .f32 0x7F800000#32
  let main_v5 : FVec F S2x1x4096 .f32 := broadcastInDim S2x1x4096 ![] bcast_S_S2x1x4096 main_cst_0
  let main_v6 : IVec S2x1x4096 1 := cmpf .olt main_v4 main_v5
  let main_c_1 : IVec S_ 1 := constantI S_ 1 1#1
  let main_v7 : IVec S_ 1 := (fun x v => Host.reduce IntOp.andi x v reducesTo_S2x1x4096_S_d0_1_2 h_S_) main_v6 main_c_1
  let main_v8 : IVec S_ 1 := andi main_v3 main_v7
  let main_v9 : FVec F S2x1x4096 .f32 := Host.absf main_arg2
  let main_cst_2 : FVec F S_ .f32 := constant S_ .f32 0x7F800000#32
  let main_v10 : FVec F S2x1x4096 .f32 := broadcastInDim S2x1x4096 ![] bcast_S_S2x1x4096 main_cst_2
  let main_v11 : IVec S2x1x4096 1 := cmpf .olt main_v9 main_v10
  let main_c_3 : IVec S_ 1 := constantI S_ 1 1#1
  let main_v12 : IVec S_ 1 := (fun x v => Host.reduce IntOp.andi x v reducesTo_S2x1x4096_S_d0_1_2 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S512 : Shape := ⟨1, ![512]⟩
abbrev S2x1x4096 : Shape := ⟨3, ![2, 1, 4096]⟩
abbrev S16384x512 : Shape := ⟨2, ![16384, 512]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S1x512 : Shape := ⟨2, ![1, 512]⟩
abbrev S1x1x4096 : Shape := ⟨3, ![1, 1, 4096]⟩
abbrev S4x4096x512 : Shape := ⟨3, ![4, 4096, 512]⟩
abbrev S4x4096x4096 : Shape := ⟨3, ![4, 4096, 4096]⟩
abbrev S4x4096 : Shape := ⟨2, ![4, 4096]⟩
abbrev S1x256 : Shape := ⟨2, ![1, 256]⟩
abbrev S4x256x512 : Shape := ⟨3, ![4, 256, 512]⟩
abbrev S4x256x4096 : Shape := ⟨3, ![4, 256, 4096]⟩
abbrev S4x256 : Shape := ⟨2, ![4, 256]⟩
abbrev S1x256x512 : Shape := ⟨3, ![1, 256, 512]⟩
abbrev S256x512 : Shape := ⟨2, ![256, 512]⟩
abbrev S1x256x4096 : Shape := ⟨3, ![1, 256, 4096]⟩
abbrev S256x4096 : Shape := ⟨2, ![256, 4096]⟩
abbrev S256 : Shape := ⟨1, ![256]⟩
abbrev S1x128 : Shape := ⟨2, ![1, 128]⟩
abbrev S4x128x4096 : Shape := ⟨3, ![4, 128, 4096]⟩
abbrev S4x128 : Shape := ⟨2, ![4, 128]⟩
abbrev S1x128x4096 : Shape := ⟨3, ![1, 128, 4096]⟩
abbrev S128x4096 : Shape := ⟨2, ![128, 4096]⟩
abbrev S128 : Shape := ⟨1, ![128]⟩
abbrev S4096x1 : Shape := ⟨2, ![4096, 1]⟩
abbrev S1x1 : Shape := ⟨2, ![1, 1]⟩
abbrev S_ : Shape := ⟨0, ![]⟩

abbrev nBuf : Space → Nat
  | .hbm => 52
  | .vmem => 28
  | .smem => 0
  | _ => 0

abbrev bufTy : (tb : Table) → Fin (tcTables nBuf tb) → BufTy
  | .hbm, ⟨0, _⟩ => ⟨S512, .f32⟩
  | .hbm, ⟨1, _⟩ => ⟨S2x1x4096, .f32⟩
  | .hbm, ⟨2, _⟩ => ⟨S2x1x4096, .f32⟩
  | .hbm, ⟨3, _⟩ => ⟨S16384x512, .f32⟩
  | .hbm, ⟨4, _⟩ => ⟨S16384x4096, .f32⟩
  | .hbm, ⟨5, _⟩ => ⟨S16384, .f32⟩
  | .hbm, ⟨6, _⟩ => ⟨S16384, .f32⟩
  | .hbm, ⟨7, _⟩ => ⟨S16384x4096, .f32⟩
  | .hbm, ⟨8, _⟩ => ⟨S16384x4096, .f32⟩
  | .hbm, ⟨9, _⟩ => ⟨S16384, .f32⟩
  | .hbm, ⟨10, _⟩ => ⟨S16384, .f32⟩
  | .hbm, ⟨11, _⟩ => ⟨S1x4096, .f32⟩
  | .hbm, ⟨12, _⟩ => ⟨S1, .f32⟩
  | .hbm, ⟨13, _⟩ => ⟨S1x4096, .f32⟩
  | .hbm, ⟨14, _⟩ => ⟨S1, .f32⟩
  | .hbm, ⟨15, _⟩ => ⟨S1x512, .f32⟩
  | .hbm, ⟨16, _⟩ => ⟨S1x1x4096, .f32⟩
  | .hbm, ⟨17, _⟩ => ⟨S1x4096, .f32⟩
  | .hbm, ⟨18, _⟩ => ⟨S1x1x4096, .f32⟩
  | .hbm, ⟨19, _⟩ => ⟨S1x4096, .f32⟩
  | .hbm, ⟨20, _⟩ => ⟨S4x4096x512, .f32⟩
  | .hbm, ⟨21, _⟩ => ⟨S4x4096x4096, .f32⟩
  | .hbm, ⟨22, _⟩ => ⟨S16384, .f32⟩
  | .hbm, ⟨23, _⟩ => ⟨S4x4096, .f32⟩
  | .hbm, ⟨24, _⟩ => ⟨S1x4096, .f32⟩
  | .hbm, ⟨25, _⟩ => ⟨S1x4096, .f32⟩
  | .hbm, ⟨26, _⟩ => ⟨S1x1x4096, .f32⟩
  | .hbm, ⟨27, _⟩ => ⟨S1x4096, .f32⟩
  | .hbm, ⟨28, _⟩ => ⟨S1x1x4096, .f32⟩
  | .hbm, ⟨29, _⟩ => ⟨S1x4096, .f32⟩
  | .hbm, ⟨30, _⟩ => ⟨S4x4096x4096, .f32⟩
  | .hbm, ⟨31, _⟩ => ⟨S4x4096x4096, .f32⟩
  | .hbm, ⟨32, _⟩ => ⟨S16384, .f32⟩
  | .hbm, ⟨33, _⟩ => ⟨S4x4096, .f32⟩
  | .hbm, ⟨34, _⟩ => ⟨S1x4096, .f32⟩
  | .hbm, ⟨35, _⟩ => ⟨S1x4096, .f32⟩
  | .hbm, ⟨36, _⟩ => ⟨S4096x1, .f32⟩
  | .hbm, ⟨37, _⟩ => ⟨S1x1, .f32⟩
  | .hbm, ⟨38, _⟩ => ⟨S1x1, .f32⟩
  | .hbm, ⟨39, _⟩ => ⟨S1x1, .f32⟩
  | .hbm, ⟨40, _⟩ => ⟨S4096x1, .f32⟩
  | .hbm, ⟨41, _⟩ => ⟨S1x1, .f32⟩
  | .hbm, ⟨42, _⟩ => ⟨S1x1, .f32⟩
  | .hbm, ⟨43, _⟩ => ⟨S1x1, .f32⟩
  | .hbm, ⟨44, _⟩ => ⟨S1x1, .f32⟩
  | .hbm, ⟨45, _⟩ => ⟨S1x1, .f32⟩
  | .hbm, ⟨46, _⟩ => ⟨S_, .f32⟩
  | .hbm, ⟨47, _⟩ => ⟨S1x1, .f32⟩
  | .hbm, ⟨48, _⟩ => ⟨S1x1, .f32⟩
  | .hbm, ⟨49, _⟩ => ⟨S_, .f32⟩
  | .hbm, ⟨50, _⟩ => ⟨S1x1, .f32⟩
  | .hbm, ⟨51, _⟩ => ⟨S1x1, .f32⟩
  | .local _ .vmem, ⟨0, _⟩ => ⟨S1x512, .f32⟩
  | .local _ .vmem, ⟨1, _⟩ => ⟨S1x4096, .f32⟩
  | .local _ .vmem, ⟨2, _⟩ => ⟨S1x256, .f32⟩
  | .local _ .vmem, ⟨3, _⟩ => ⟨S1x256, .f32⟩
  | .local _ .vmem, ⟨4, _⟩ => ⟨S4x256x512, .f32⟩
  | .local _ .vmem, ⟨5, _⟩ => ⟨S4x256x512, .f32⟩
  | .local _ .vmem, ⟨6, _⟩ => ⟨S4x256x4096, .f32⟩
  | .local _ .vmem, ⟨7, _⟩ => ⟨S4x256x4096, .f32⟩
  | .local _ .vmem, ⟨8, _⟩ => ⟨S4x256, .f32⟩
  | .local _ .vmem, ⟨9, _⟩ => ⟨S4x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x4096, .f32⟩
  | .local _ .vmem, ⟨15, _⟩ => ⟨S1x4096, .f32⟩
  | .local _ .vmem, ⟨16, _⟩ => ⟨S1x128, .f32⟩
  | .local _ .vmem, ⟨17, _⟩ => ⟨S1x128, .f32⟩
  | .local _ .vmem, ⟨18, _⟩ => ⟨S4x128x4096, .f32⟩
  | .local _ .vmem, ⟨19, _⟩ => ⟨S4x128x4096, .f32⟩
  | .local _ .vmem, ⟨20, _⟩ => ⟨S4x128x4096, .f32⟩
  | .local _ .vmem, ⟨21, _⟩ => ⟨S4x128x4096, .f32⟩
  | .local _ .vmem, ⟨22, _⟩ => ⟨S4x128, .f32⟩
  | .local _ .vmem, ⟨23, _⟩ => ⟨S4x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S512_S1x512 : S512.ShapeCasts S1x512
  slices_S2x1x4096_S1x1x4096_0_0_0 : S2x1x4096.Slices ![0, 0, 0] S1x1x4096
  shapeCasts_S1x1x4096_S1x4096 : S1x1x4096.ShapeCasts S1x4096
  shapeCasts_S16384x512_S4x4096x512 : S16384x512.ShapeCasts S4x4096x512
  shapeCasts_S16384x4096_S4x4096x4096 : S16384x4096.ShapeCasts S4x4096x4096
  shapeCasts_S16384_S4x4096 : S16384.ShapeCasts S4x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  inb_S4x256x4096_S1x256x4096_0_0_0 : ∀ a, (![0, 0, 0] : Fin 3 → Nat) a + S1x256x4096.size a ≤ S4x256x4096.size a
  h_S1x256x4096 : 0 < S1x256x4096.numel
  shapeCasts_S1x256x4096_S256x4096 : S1x256x4096.ShapeCasts S256x4096
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  inb_S4x256x512_S1x256x512_1_0_0 : ∀ a, (![1, 0, 0] : Fin 3 → Nat) a + S1x256x512.size a ≤ S4x256x512.size a
  inb_S4x256x4096_S1x256x4096_1_0_0 : ∀ a, (![1, 0, 0] : Fin 3 → Nat) a + S1x256x4096.size a ≤ S4x256x4096.size a
  inb_S4x256_S1x256_1_0 : ∀ a, (![1, 0] : Fin 2 → Nat) a + S1x256.size a ≤ S4x256.size a
  inb_S4x256x512_S1x256x512_2_0_0 : ∀ a, (![2, 0, 0] : Fin 3 → Nat) a + S1x256x512.size a ≤ S4x256x512.size a
  inb_S4x256x4096_S1x256x4096_2_0_0 : ∀ a, (![2, 0, 0] : Fin 3 → Nat) a + S1x256x4096.size a ≤ S4x256x4096.size a
  inb_S4x256_S1x256_2_0 : ∀ a, (![2, 0] : Fin 2 → Nat) a + S1x256.size a ≤ S4x256.size a
  inb_S4x256x512_S1x256x512_3_0_0 : ∀ a, (![3, 0, 0] : Fin 3 → Nat) a + S1x256x512.size a ≤ S4x256x512.size a
  inb_S4x256x4096_S1x256x4096_3_0_0 : ∀ a, (![3, 0, 0] : Fin 3 → Nat) a + S1x256x4096.size a ≤ S4x256x4096.size a
  inb_S4x256_S1x256_3_0 : ∀ a, (![3, 0] : Fin 2 → Nat) a + S1x256.size a ≤ S4x256.size a
  inb_S1x256_S1x256_0_0 : ∀ a, (![0, 0] : Fin 2 → Nat) a + S1x256.size a ≤ S1x256.size a
  shapeCasts_S1x256_S1x256 : S1x256.ShapeCasts S1x256
  slices_S2x1x4096_S1x1x4096_1_0_0 : S2x1x4096.Slices ![1, 0, 0] S1x1x4096
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  inb_S4x128x4096_S1x128x4096_1_0_0 : ∀ a, (![1, 0, 0] : Fin 3 → Nat) a + S1x128x4096.size a ≤ S4x128x4096.size a
  inb_S4x128_S1x128_1_0 : ∀ a, (![1, 0] : Fin 2 → Nat) a + S1x128.size a ≤ S4x128.size a
  inb_S4x128x4096_S1x128x4096_2_0_0 : ∀ a, (![2, 0, 0] : Fin 3 → Nat) a + S1x128x4096.size a ≤ S4x128x4096.size a
  inb_S4x128_S1x128_2_0 : ∀ a, (![2, 0] : Fin 2 → Nat) a + S1x128.size a ≤ S4x128.size a
  inb_S4x128x4096_S1x128x4096_3_0_0 : ∀ a, (![3, 0, 0] : Fin 3 → Nat) a + S1x128x4096.size a ≤ S4x128x4096.size a
  inb_S4x128_S1x128_3_0 : ∀ a, (![3, 0] : Fin 2 → Nat) a + S1x128.size a ≤ S4x128.size a
  inb_S1x128_S1x128_0_0 : ∀ a, (![0, 0] : Fin 2 → Nat) a + S1x128.size a ≤ S1x128.size a
  shapeCasts_S1x128_S1x128 : S1x128.ShapeCasts S1x128
  transposes_S1x4096_S4096x1_1_0 : S1x4096.Transposes [1, 0] S4096x1
  bcast_S1_S1x1_1 : S1.BroadcastsInDim S1x1 (![1] : Fin 1 → Fin S1x1.rank)
  bcast_S_S1x1 : S_.BroadcastsInDim S1x1 (![] : Fin 0 → Fin S1x1.rank)
  dot_S1x512_S256x512_S1x256_1_1_0_0_n_n_wf : DotDims.WF S1x512 S256x512 S1x256 [1] [1] [0] [0] [] []
  dot_S1x4096_S256x4096_S1x256_1_1_0_0_n_n_wf : DotDims.WF S1x4096 S256x4096 S1x256 [1] [1] [0] [0] [] []
  dot_S1x4096_S128x4096_S1x128_1_1_0_0_n_n_wf : DotDims.WF S1x4096 S128x4096 S1x128 [1] [1] [0] [0] [] []
  dot_S1x4096_S4096x1_S1x1_1_0_0_1_n_n_wf : DotDims.WF S1x4096 S4096x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x512.size a ≤ S4x4096x512.size a
  hwx0_3 : ∀ i : grid0.Coords, EltTy.bits .f32 = 32 ∨ (Rect.block (s := S4x4096x512) S4x256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x4096.size a ≤ S4x4096x4096.size a
  hwx0_4 : ∀ i : grid0.Coords, EltTy.bits .f32 = 32 ∨ (Rect.block (s := S4x4096x4096) S4x256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x4096.size a
  hwx0_5 : ∀ i : grid0.Coords, EltTy.bits .f32 = 32 ∨ (Rect.block (s := S4x4096) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x4096.size a
  hwx0_6 : ∀ i : grid0.Coords, EltTy.bits .f32 = 32 ∨ (Rect.block (s := S1x4096) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x4096.size a
  hwx0_7 : ∀ i : grid0.Coords, EltTy.bits .f32 = 32 ∨ (Rect.block (s := S1x4096) S1x256.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x4096.size a
  hwx1_2 : ∀ i : grid1.Coords, EltTy.bits .f32 = 32 ∨ (Rect.block (s := S1x4096) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128x4096.size a ≤ S4x4096x4096.size a
  hwx1_3 : ∀ i : grid1.Coords, EltTy.bits .f32 = 32 ∨ (Rect.block (s := S4x4096x4096) S4x128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x128x4096.size a ≤ S4x4096x4096.size a
  hwx1_4 : ∀ i : grid1.Coords, EltTy.bits .f32 = 32 ∨ (Rect.block (s := S4x4096x4096) S4x128x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x128.size a ≤ S4x4096.size a
  hwx1_5 : ∀ i : grid1.Coords, EltTy.bits .f32 = 32 ∨ (Rect.block (s := S4x4096) S4x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x4096.size a
  hwx1_6 : ∀ i : grid1.Coords, EltTy.bits .f32 = 32 ∨ (Rect.block (s := S1x4096) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x4096.size a
  hwx1_7 : ∀ i : grid1.Coords, EltTy.bits .f32 = 32 ∨ (Rect.block (s := S1x4096) S1x128.size (cc1_transform_7 i) (hinb1_7 i)).WholeWords (EltTy.packing .f32)

variable [Facts₀]

def dot_S1x512_S256x512_S1x256_1_1_0_0_n_n : DotDims S1x512 S256x512 S1x256 where
  lhsContracting := [1]
  rhsContracting := [1]
  lhsNonContracting := [0]
  rhsNonContracting := [0]
  lhsBatch := []
  rhsBatch := []
  wf := dot_S1x512_S256x512_S1x256_1_1_0_0_n_n_wf
def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf
def dot_S1x4096_S128x4096_S1x128_1_1_0_0_n_n : DotDims S1x4096 S128x4096 S1x128 where
  lhsContracting := [1]
  rhsContracting := [1]
  lhsNonContracting := [0]
  rhsNonContracting := [0]
  lhsBatch := []
  rhsBatch := []
  wf := dot_S1x4096_S128x4096_S1x128_1_1_0_0_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

abbrev win0_0 : Pipeline.Window sig grid0 :=
  Pipeline.Window.ofSpec (Memref.whole main_v0) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4x256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S1x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v9_0) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S4x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S4x128x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S4x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18_0) S1x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18_1) S1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S512 : Shape := ⟨1, ![512]⟩
abbrev S2x1x4096 : Shape := ⟨3, ![2, 1, 4096]⟩
abbrev S16384x512 : Shape := ⟨2, ![16384, 512]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S1x512 : Shape := ⟨2, ![1, 512]⟩
abbrev S1x1x4096 : Shape := ⟨3, ![1, 1, 4096]⟩
abbrev S512x16384 : Shape := ⟨2, ![512, 16384]⟩
abbrev S1x16384 : Shape := ⟨2, ![1, 16384]⟩
abbrev S4096x16384 : Shape := ⟨2, ![4096, 16384]⟩
abbrev S_ : Shape := ⟨0, ![]⟩
abbrev S4096x1 : Shape := ⟨2, ![4096, 1]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S512, .f32⟩
  | .hbm, ⟨1, _⟩ => ⟨S2x1x4096, .f32⟩
  | .hbm, ⟨2, _⟩ => ⟨S2x1x4096, .f32⟩
  | .hbm, ⟨3, _⟩ => ⟨S16384x512, .f32⟩
  | .hbm, ⟨4, _⟩ => ⟨S16384x4096, .f32⟩
  | .hbm, ⟨5, _⟩ => ⟨S16384, .f32⟩
  | .hbm, ⟨6, _⟩ => ⟨S16384, .f32⟩
  | .hbm, ⟨7, _⟩ => ⟨S16384x4096, .f32⟩
  | .hbm, ⟨8, _⟩ => ⟨S16384x4096, .f32⟩
  | .hbm, ⟨9, _⟩ => ⟨S16384, .f32⟩
  | .hbm, ⟨10, _⟩ => ⟨S16384, .f32⟩
  | .hbm, ⟨11, _⟩ => ⟨S1x4096, .f32⟩
  | .hbm, ⟨12, _⟩ => ⟨S1, .f32⟩
  | .hbm, ⟨13, _⟩ => ⟨S1x4096, .f32⟩
  | .hbm, ⟨14, _⟩ => ⟨S1, .f32⟩
  | .hbm, ⟨15, _⟩ => ⟨S1x512, .f32⟩
  | .hbm, ⟨16, _⟩ => ⟨S1x1x4096, .f32⟩
  | .hbm, ⟨17, _⟩ => ⟨S1x4096, .f32⟩
  | .hbm, ⟨18, _⟩ => ⟨S1x1x4096, .f32⟩
  | .hbm, ⟨19, _⟩ => ⟨S1x4096, .f32⟩
  | .hbm, ⟨20, _⟩ => ⟨S512x16384, .f32⟩
  | .hbm, ⟨21, _⟩ => ⟨S1x16384, .f32⟩
  | .hbm, ⟨22, _⟩ => ⟨S1x16384, .f32⟩
  | .hbm, ⟨23, _⟩ => ⟨S1x16384, .f32⟩
  | .hbm, ⟨24, _⟩ => ⟨S4096x16384, .f32⟩
  | .hbm, ⟨25, _⟩ => ⟨S1x16384, .f32⟩
  | .hbm, ⟨26, _⟩ => ⟨S1x16384, .f32⟩
  | .hbm, ⟨27, _⟩ => ⟨S1x16384, .f32⟩
  | .hbm, ⟨28, _⟩ => ⟨S1x16384, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S_, .f32⟩
  | .hbm, ⟨39, _⟩ => ⟨S1x4096, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S1x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S_, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S1x4096, .f32⟩
  | .hbm, ⟨60, _⟩ => ⟨S1x4096, .f32⟩
  | .hbm, ⟨61, _⟩ => ⟨S1x4096, .f32⟩
  | .hbm, ⟨62, _⟩ => ⟨S1x4096, .f32⟩
  | .hbm, ⟨63, _⟩ => ⟨S1x1x4096, .f32⟩
  | .hbm, ⟨64, _⟩ => ⟨S1x4096, .f32⟩
  | .hbm, ⟨65, _⟩ => ⟨S1x1x4096, .f32⟩
  | .hbm, ⟨66, _⟩ => ⟨S1x4096, .f32⟩
  | .hbm, ⟨67, _⟩ => ⟨S4096x16384, .f32⟩
  | .hbm, ⟨68, _⟩ => ⟨S1x16384, .f32⟩
  | .hbm, ⟨69, _⟩ => ⟨S1x16384, .f32⟩
  | .hbm, ⟨70, _⟩ => ⟨S1x16384, .f32⟩
  | .hbm, ⟨71, _⟩ => ⟨S4096x16384, .f32⟩
  | .hbm, ⟨72, _⟩ => ⟨S1x16384, .f32⟩
  | .hbm, ⟨73, _⟩ => ⟨S1x16384, .f32⟩
  | .hbm, ⟨74, _⟩ => ⟨S1x16384, .f32⟩
  | .hbm, ⟨75, _⟩ => ⟨S1x16384, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S1x4096, .f32⟩
  | .hbm, ⟨82, _⟩ => ⟨S_, .f32⟩
  | .hbm, ⟨83, _⟩ => ⟨S1x4096, .f32⟩
  | .hbm, ⟨84, _⟩ => ⟨S1x4096, .f32⟩
  | .hbm, ⟨85, _⟩ => ⟨S_, .f32⟩
  | .hbm, ⟨86, _⟩ => ⟨S1x4096, .f32⟩
  | .hbm, ⟨87, _⟩ => ⟨S1x4096, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S_, .f32⟩
  | .hbm, ⟨92, _⟩ => ⟨S1x4096, .f32⟩
  | .hbm, ⟨93, _⟩ => ⟨S1x4096, .f32⟩
  | .hbm, ⟨94, _⟩ => ⟨S_, .f32⟩
  | .hbm, ⟨95, _⟩ => ⟨S1x4096, .f32⟩
  | .hbm, ⟨96, _⟩ => ⟨S1x4096, .f32⟩
  | .hbm, ⟨97, _⟩ => ⟨S1x4096, .f32⟩
  | .hbm, ⟨98, _⟩ => ⟨S1x4096, .f32⟩
  | .hbm, ⟨99, _⟩ => ⟨S1x4096, .f32⟩
  | .hbm, ⟨100, _⟩ => ⟨S1x4096, .f32⟩
  | .hbm, ⟨101, _⟩ => ⟨S1x4096, .f32⟩
  | .hbm, ⟨102, _⟩ => ⟨S_, .f32⟩
  | .hbm, ⟨103, _⟩ => ⟨S1x4096, .f32⟩
  | .hbm, ⟨104, _⟩ => ⟨S1x4096, .f32⟩
  | .hbm, ⟨105, _⟩ => ⟨S_, .f32⟩
  | .hbm, ⟨106, _⟩ => ⟨S1x4096, .f32⟩
  | .hbm, ⟨107, _⟩ => ⟨S1x4096, .f32⟩
  | .hbm, ⟨108, _⟩ => ⟨S1x4096, .f32⟩
  | .hbm, ⟨109, _⟩ => ⟨S1x4096, .f32⟩
  | .hbm, ⟨110, _⟩ => ⟨S4096x1, .f32⟩
  | .hbm, ⟨111, _⟩ => ⟨S1x1, .f32⟩
  | .hbm, ⟨112, _⟩ => ⟨S1x1, .f32⟩
  | .hbm, ⟨113, _⟩ => ⟨S1x1, .f32⟩
  | .hbm, ⟨114, _⟩ => ⟨S4096x1, .f32⟩
  | .hbm, ⟨115, _⟩ => ⟨S1x1, .f32⟩
  | .hbm, ⟨116, _⟩ => ⟨S1x1, .f32⟩
  | .hbm, ⟨117, _⟩ => ⟨S1x1, .f32⟩
  | .hbm, ⟨118, _⟩ => ⟨S1x1, .f32⟩
  | .hbm, ⟨119, _⟩ => ⟨S1x1, .f32⟩
  | .hbm, ⟨120, _⟩ => ⟨S_, .f32⟩
  | .hbm, ⟨121, _⟩ => ⟨S1x1, .f32⟩
  | .hbm, ⟨122, _⟩ => ⟨S1x1, .f32⟩
  | .hbm, ⟨123, _⟩ => ⟨S_, .f32⟩
  | .hbm, ⟨124, _⟩ => ⟨S1x1, .f32⟩
  | .hbm, ⟨125, _⟩ => ⟨S1x1, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_9 : Ref sig .tc := ⟨.hbm, 102, rfl⟩
abbrev main_v77 : Ref sig .tc := ⟨.hbm, 103, rfl⟩
abbrev main_v78 : Ref sig .tc := ⟨.hbm, 104, rfl⟩
abbrev main_cst_10 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_11 : Ref sig .tc := ⟨.hbm, 120, rfl⟩
abbrev main_v93 : Ref sig .tc := ⟨.hbm, 121, rfl⟩
abbrev main_v94 : Ref sig .tc := ⟨.hbm, 122, rfl⟩
abbrev main_cst_12 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]

class Facts₀ : Prop where
  shapeCasts_S512_S1x512 : S512.ShapeCasts S1x512
  slices_S2x1x4096_S1x1x4096_0_0_0 : S2x1x4096.Slices ![0, 0, 0] S1x1x4096
  shapeCasts_S1x1x4096_S1x4096 : S1x1x4096.ShapeCasts S1x4096
  transposes_S16384x512_S512x16384_1_0 : S16384x512.Transposes [1, 0] S512x16384
  bcast_S16384_S1x16384_1 : S16384.BroadcastsInDim S1x16384 (![1] : Fin 1 → Fin S1x16384.rank)
  transposes_S16384x4096_S4096x16384_1_0 : S16384x4096.Transposes [1, 0] S4096x16384
  slices_S1x16384_S1x4096_0_0 : S1x16384.Slices ![0, 0] S1x4096
  slices_S1x16384_S1x4096_0_4096 : S1x16384.Slices ![0, 4096] S1x4096
  slices_S1x16384_S1x4096_0_8192 : S1x16384.Slices ![0, 8192] S1x4096
  slices_S1x16384_S1x4096_0_12288 : S1x16384.Slices ![0, 12288] S1x4096
  bcast_S_S1x4096 : S_.BroadcastsInDim S1x4096 (![] : Fin 0 → Fin S1x4096.rank)
  slices_S2x1x4096_S1x1x4096_1_0_0 : S2x1x4096.Slices ![1, 0, 0] S1x1x4096
  transposes_S1x4096_S4096x1_1_0 : S1x4096.Transposes [1, 0] S4096x1
  bcast_S1_S1x1_1 : S1.BroadcastsInDim S1x1 (![1] : Fin 1 → Fin S1x1.rank)
  bcast_S_S1x1 : S_.BroadcastsInDim S1x1 (![] : Fin 0 → Fin S1x1.rank)
  dot_S1x512_S512x16384_S1x16384_1_0_0_1_n_n_wf : DotDims.WF S1x512 S512x16384 S1x16384 [1] [0] [0] [1] [] []
  dot_S1x4096_S4096x16384_S1x16384_1_0_0_1_n_n_wf : DotDims.WF S1x4096 S4096x16384 S1x16384 [1] [0] [0] [1] [] []
  dot_S1x4096_S4096x1_S1x1_1_0_0_1_n_n_wf : DotDims.WF S1x4096 S4096x1 S1x1 [1] [0] [0] [1] [] []

variable [Facts₀]

def dot_S1x512_S512x16384_S1x16384_1_0_0_1_n_n : DotDims S1x512 S512x16384 S1x16384 where
  lhsContracting := [1]
  rhsContracting := [0]
  lhsNonContracting := [0]
  rhsNonContracting := [1]
  lhsBatch := []
  rhsBatch := []
  wf := dot_S1x512_S512x16384_S1x16384_1_0_0_1_n_n_wf
def dot_S1x4096_S4096x16384_S1x16384_1_0_0_1_n_n : DotDims S1x4096 S4096x16384 S1x16384 where
  lhsContracting := [1]
  rhsContracting := [0]
  lhsNonContracting := [0]
  rhsNonContracting := [1]
  lhsBatch := []
  rhsBatch := []
  wf := dot_S1x4096_S4096x16384_S1x16384_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

class Facts : Prop extends Facts₀ where

variable [Facts]
-- ==== Proof.KernelRun.lean ====
/-
  The kernel program's run, read at its two results.

  The program is five segments: host operations, the first cell's grid, host operations, the second cell's grid, host
  operations. The contents of every unscoped buffer at each boundary are a fold from the launch memory; after the last
  segment they are `W5`. Every weakly fair execution ends with each such buffer at `W5`, so in particular the two result
  buffers are `W5` at their references, and the fifteen arguments are as launched.
-/
import proofs.«125027_j23545010717534_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the two results at the last boundary's contents and the arguments as
    launched. -/
theorem run_results : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v32 (by decide)),
       h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Cert.KernelIdeal.Hand

end
-- ==== Proof.Cell.lean ====
/-
  One LSTM unit over the extended reals.

  A gate's pre-activation for one unit is the input row against the unit's input weights, plus the hidden row against
  the unit's hidden weights, plus a bias. One program adds the two bias vectors first and the sum last; the other adds
  the first bias after the first product and the second bias after the second product. Addition of extended reals is
  commutative and associative (no cancellation is used), so the two groupings agree whatever the entries are,
  infinite ones included.

  From the four pre-activations i, f, g, o and the old cell state c the unit's new cell state is
  σ(f)·c + σ(i)·tanh(g) and its output σ(o)·tanh(new cell state), with σ x = 1 / (1 + e^(-x)). The float word
  0x3F800000 denotes the number one, so the quotient "one over one plus the exponential of minus x", spelt with that
  word, is σ.
-/
import Idealize.ShloMosaic.PureOps.Ideal.Laws
import Idealize.ShloMosaic.Lib.IdealHost

noncomputable section

namespace Cert.Lstm

open Idealize.ShloMosaic

/-- A gate's pre-activation for one unit: input row · input weights + hidden row · hidden weights + bias. -/
def gateRow {K Hd : ℕ} (x : Fin K → EReal) (h : Fin Hd → EReal) (wi : Fin K → EReal) (wh : Fin Hd → EReal)
    (b : EReal) : EReal :=
  (∑ k, x k * wi k + ∑ k, h k * wh k) + b

/-- The same number with each bias added right after its own product. -/
theorem gateRow_split {K Hd : ℕ} (x : Fin K → EReal) (h : Fin Hd → EReal) (wi : Fin K → EReal) (wh : Fin Hd → EReal)
    (bi bh : EReal) :
    ((∑ k, x k * wi k + bi) + ∑ k, h k * wh k) + bh = gateRow x h wi wh (bi + bh) := by
  unfold gateRow
  rw [add_assoc, add_add_add_comm]

/-- The unit's new cell state from the gates i, f, g and the old cell state. -/
def cellC (gi gf gg c : EReal) : EReal :=
  Ideal.logistic gf * c + Ideal.logistic gi * Ideal.tanh gg

/-- The unit's output from its four gates and the old cell state. -/
def cellH (gi gf gg go c : EReal) : EReal :=
  Ideal.logistic go * Ideal.tanh (cellC gi gf gg c)

/-- One over one plus e^(-x), the ones spelt by their float word, is σ x. -/
theorem logistic_spelt (x : EReal) :
    Ideal.div (Ideal.ofBits .f32 0x3F800000#32) (Ideal.ofBits .f32 0x3F800000#32 + Ideal.exp (-x)) = Ideal.logistic x := by
  rw [Ideal.ofBits_one_f32]
  rfl

/-! ## One cell over its flat parameter arrays

  The parameter arrays list the four gates' rows one gate after the other: row `4096·g + j` belongs to gate g of unit j. -/

/-- The row of the parameter arrays that belongs to gate g of unit j. -/
def row (g : Fin 4) (j : Fin 4096) : Fin 16384 :=
  ⟨g.val * 4096 + j.val, by have := g.isLt; have := j.isLt; omega⟩

/-- Gate g of unit j from an input row, a hidden row, the two weight arrays and the two bias vectors. -/
def gateF {K : ℕ} (x : Fin K → EReal) (h : Fin 4096 → EReal) (wih : Fin 16384 → Fin K → EReal)
    (whh : Fin 16384 → Fin 4096 → EReal) (bih bhh : Fin 16384 → EReal) (g : Fin 4) (j : Fin 4096) : EReal :=
  gateRow x h (wih (row g j)) (whh (row g j)) (bih (row g j) + bhh (row g j))

/-- Unit j's output from the rows, the old cell state and the parameters. -/
def lstmH {K : ℕ} (x : Fin K → EReal) (h c : Fin 4096 → EReal) (wih : Fin 16384 → Fin K → EReal)
    (whh : Fin 16384 → Fin 4096 → EReal) (bih bhh : Fin 16384 → EReal) (j : Fin 4096) : EReal :=
  cellH (gateF x h wih whh bih bhh 0 j) (gateF x h wih whh bih bhh 1 j) (gateF x h wih whh bih bhh 2 j)
    (gateF x h wih whh bih bhh 3 j) (c j)

end Cert.Lstm

end
-- ==== Proof.LibRowRowProduct.lean ====
/-
  A matrix product that contracts the SECOND axis of both operands, read at coordinates.

  For `lhs` of extents [A, K] and `rhs` of extents [B, K], the product that pairs row `a` of the first with row `b` of
  the second — `lhs · rhsᵀ` — reads at `(a, b)`, over the extended reals, the sum over `k` of `lhs (a, k) · rhs (b, k)`:
  stated for the accumulating product into a zero accumulator and for the host's product. The dimension record's two
  non-contracted coordinates are taken as hypotheses; at a literal record they hold by computation.
-/
import Idealize.ShloMosaic.PureOps.Ideal.Laws
import Idealize.ShloMosaic.Lib.ValueIdx
import Idealize.ShloMosaic.Lib.Pipeline.Value

noncomputable section

namespace Cert.LibRowRowProduct

open Idealize.ShloMosaic Idealize.ShloMosaic.ValueIdx

section Dot
variable {A K B : ℕ} {φ₁ φ₂ : FTy}
  (d : DotDims ⟨2, ![A, K]⟩ ⟨2, ![B, K]⟩ ⟨2, ![A, B]⟩)
  (hr : d.contr.rank = 1) (hs : d.contr.size ⟨0, by omega⟩ = K)
  (hlc : d.lhsContracting = [1]) (hrc : d.rhsContracting = [1])
  (hl0 : ∀ j k, (d.lhsIdx j k 0).val = (j 0).val) (hr0 : ∀ j k, (d.rhsIdx j k 0).val = (j 1).val)
  (lhs : FVec Ideal ⟨2, ![A, K]⟩ φ₁) (rhs : FVec Ideal ⟨2, ![B, K]⟩ φ₂) (a : Fin A) (b : Fin B)

include hr hs hlc hrc hl0 hr0 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 b k) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 b k := by
    funext c
    apply Fin.ext
    match c with
    | ⟨0, _⟩ => exact hr0 _ _
    | ⟨1, _⟩ => exact (d.rhsIdx_val_of_single hrc _ _).trans (contrEquiv1_symm_val d K hr hs k)
  rw [e1, e2]

include hr hs hlc hrc hl0 hr0 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 b k) :=
  (Ideal.matmul_constant_zero_apply d prec lhs rhs (ix2 a b)).trans (contr_sum d hr hs hlc hrc hl0 hr0 lhs rhs a b)

include hr hs hlc hrc hl0 hr0 in
/-- The host's product, at `(a, b)`. -/
theorem hostDot_apply (prec : Option ContractPrecision) :
    Host.dotGeneral d prec lhs rhs (ix2 a b) = ∑ k : Fin K, lhs (ix2 a k) * rhs (ix2 b k) :=
  (Ideal.dotGeneral_apply d prec .single lhs rhs (ix2 a b)).trans (contr_sum d hr hs hlc hrc hl0 hr0 lhs rhs a b)

end Dot

end Cert.LibRowRowProduct

end
-- ==== Proof.LibLeadUnit.lean ====
/-
  A shape_cast that drops a LEADING unit axis, read at coordinates: [1, B, C] recast as [B, C] at (b, c) is the array
  at (0, b, c).  (Row-major positions: (0 · B + b) · C + c = b · C + c.)  For any element type.
-/
import Idealize.ShloMosaic.Lib.ValueIdx
import Idealize.ShloMosaic.Lib.Pipeline.Value

noncomputable section

namespace Cert.LibLeadUnit

open Idealize.ShloMosaic Idealize.ShloMosaic.ValueIdx

variable {α : Type}

/-- [1, B, C] recast as [B, C], at (b, c): the operand at (0, b, c). -/
theorem cast_1bc_bc {B C : ℕ} (x : (⟨3, ![1, B, C]⟩ : Shape).Idx → α)
    (h : (⟨3, ![1, B, C]⟩ : Shape).ShapeCasts ⟨2, ![B, C]⟩) (b : Fin B) (c : Fin C) :
    shapeCast ⟨2, ![B, C]⟩ x h (ix2 b c) = x (ix3 0 b c) := by
  refine shapeCast_apply x h _ _ ?_
  rw [Shape.rowMajor_val_three, Shape.rowMajor_val_two]
  show (0 * B + b.val) * C + c.val = b.val * C + c.val
  rw [Nat.zero_mul, Nat.zero_add]

end Cert.LibLeadUnit

end
-- ==== Proof.LibUnitLoads.lean ====
/-
  A load through a unit-stride rectangle read at an index.

  The rectangle takes `size a` consecutive coordinates from `off a` on every axis, so the element the load puts at the
  local index `y` is the contents' element at `off + y`, axis by axis. Stated with the target index as a variable and
  its coordinates as a hypothesis, so that a caller names the index by its coordinates and discharges one equation
  per axis.
-/
import Idealize.ShloMosaic.Lib.Pipeline.Value

noncomputable section

namespace Cert.LibUnitLoads

open Idealize.ShloMosaic

variable {Val : EltTy → Type} {S : Shape} {e : EltTy}

/-- The load at `y` is the contents at the index whose every coordinate is the offset plus `y`'s. -/
theorem ld_unit_apply (X : S.Idx → Val e) (off size : Fin S.rank → ℕ) (inb : ∀ a, off a + size a ≤ S.size a)
    (y : (Rect.unit off size inb).shape.Idx) (k : S.Idx) (hk : ∀ a, (k a).val = off a + (y a).val) :
    View.ld X (Rect.unit off size inb) y = X k :=
  congrArg X (funext fun a => Fin.ext (by
    rw [hk a]
    show off a + 1 * (y a).val = off a + (y a).val
    rw [Nat.one_mul]))

end Cert.LibUnitLoads

end
-- ==== Proof.Body0.lean ====
/-
  What one grid point of cell 1 stores for one unit.

  The body loads the input row, the hidden row, the point's slice of the old cell state, and for each of the four gates
  the point's rows of the two weight arrays and of the summed bias. For a unit u of the point's 256 units it forms each
  gate's pre-activation — the input row against row u of that gate's input weights, plus the hidden row against row u
  of its hidden weights (both products round their operands to a narrower format, which is the identity on extended
  reals, and start from a zero accumulator), plus the bias at (gate, u) — and stores σ(o)·tanh(σ(f)·c + σ(i)·tanh(g)).
  Each loaded piece is the block read at the piece's offset, so entry u of the stored row is the cell function of the
  blocks' entries in row u of each gate.
-/
import proofs.«125027_j23545010717534_2_alg».proof.Proof.Gen.KernelIdeal.Frame
import proofs.«125027_j23545010717534_2_alg».proof.Proof.Cell
import proofs.«125027_j23545010717534_2_alg».proof.Proof.LibRowRowProduct
import proofs.«125027_j23545010717534_2_alg».proof.Proof.LibLeadUnit
import proofs.«125027_j23545010717534_2_alg».proof.Proof.LibUnitLoads
import Idealize.ShloMosaic.Lib.ValueIdx
import Idealize.ShloMosaic.Lib.Pipeline.Value

noncomputable section

namespace Cert.KernelIdeal.Body0

open Cert.KernelIdeal Cert.KernelIdeal.Gen Cert.Lstm
open Idealize.ShloMosaic Idealize.ShloMosaic.ValueIdx

theorem hz2 : (![0, 0] : Fin 2 → Nat) = fun _ => 0 := funext fun a => by fin_cases a <;> rfl

/-! ## The two products' dimension records: the row of the result is the row of the left operand, the column of the
    result is the row of the right operand -/

theorem d1_l0 (j : S1x256.Idx) (k : dot_S1x512_S256x512_S1x256_1_1_0_0_n_n.contr.Idx) : (dot_S1x512_S256x512_S1x256_1_1_0_0_n_n.lhsIdx j k 0).val = (j 0).val := by
  unfold DotDims.lhsIdx
  rw [dif_neg (show ¬(0 : Fin S1x512.rank) ∈ dot_S1x512_S256x512_S1x256_1_1_0_0_n_n.lhsBatch by decide), dif_pos (show (0 : Fin S1x512.rank) ∈ dot_S1x512_S256x512_S1x256_1_1_0_0_n_n.lhsNonContracting by decide)]
  rfl
theorem d1_r0 (j : S1x256.Idx) (k : dot_S1x512_S256x512_S1x256_1_1_0_0_n_n.contr.Idx) : (dot_S1x512_S256x512_S1x256_1_1_0_0_n_n.rhsIdx j k 0).val = (j 1).val := by
  unfold DotDims.rhsIdx
  rw [dif_neg (show ¬(0 : Fin S256x512.rank) ∈ dot_S1x512_S256x512_S1x256_1_1_0_0_n_n.rhsBatch by decide), dif_pos (show (0 : Fin S256x512.rank) ∈ dot_S1x512_S256x512_S1x256_1_1_0_0_n_n.rhsNonContracting by decide)]
  rfl
theorem d2_l0 (j : S1x256.Idx) (k : dot_S1x4096_S256x4096_S1x256_1_1_0_0_n_n.contr.Idx) : (dot_S1x4096_S256x4096_S1x256_1_1_0_0_n_n.lhsIdx j k 0).val = (j 0).val := by
  unfold DotDims.lhsIdx
  rw [dif_neg (show ¬(0 : Fin S1x4096.rank) ∈ dot_S1x4096_S256x4096_S1x256_1_1_0_0_n_n.lhsBatch by decide), dif_pos (show (0 : Fin S1x4096.rank) ∈ dot_S1x4096_S256x4096_S1x256_1_1_0_0_n_n.lhsNonContracting by decide)]
  rfl
theorem d2_r0 (j : S1x256.Idx) (k : dot_S1x4096_S256x4096_S1x256_1_1_0_0_n_n.contr.Idx) : (dot_S1x4096_S256x4096_S1x256_1_1_0_0_n_n.rhsIdx j k 0).val = (j 1).val := by
  unfold DotDims.rhsIdx
  rw [dif_neg (show ¬(0 : Fin S256x4096.rank) ∈ dot_S1x4096_S256x4096_S1x256_1_1_0_0_n_n.rhsBatch by decide), dif_pos (show (0 : Fin S256x4096.rank) ∈ dot_S1x4096_S256x4096_S1x256_1_1_0_0_n_n.rhsNonContracting by decide)]
  rfl

/-! ## One gate of one unit from the pieces the body holds -/

/-- A gate's pre-activation at unit u from the two rounded rows, one gate's slab of each weight block and one gate's row
    of the bias block. -/
theorem gate_apply (xb : FVec Ideal S1x512 .bf16) (hb : FVec Ideal S1x4096 .bf16) (w1 : Vec Ideal S1x256x512 .f32)
    (w2 : Vec Ideal S1x256x4096 .f32) (b : Vec Ideal S1x256 .f32) (u : Fin 256) :
    addf (addf (matmul dot_S1x512_S256x512_S1x256_1_1_0_0_n_n none xb (truncf .bf16 (shapeCast S256x512 w1 shapeCasts_S1x256x512_S256x512) bitsLt_bf16_f32) (constant S1x256 .f32 0x00000000#32))
               (matmul dot_S1x4096_S256x4096_S1x256_1_1_0_0_n_n none hb (truncf .bf16 (shapeCast S256x4096 w2 shapeCasts_S1x256x4096_S256x4096) bitsLt_bf16_f32) (constant S1x256 .f32 0x00000000#32)))
         (shapeCast S1x256 (shapeCast S256 b shapeCasts_S1x256_S256) shapeCasts_S256_S1x256) (ix2 0 u)
      = gateRow (fun k : Fin 512 => xb (ix2 0 k)) (fun k : Fin 4096 => hb (ix2 0 k)) (fun k => w1 (ix3 0 u k))
          (fun k => w2 (ix3 0 u k)) (b (ix2 0 u)) := by
  unfold gateRow
  have e1 := Cert.LibRowRowProduct.matmul_zero_apply dot_S1x512_S256x512_S1x256_1_1_0_0_n_n rfl rfl rfl rfl d1_l0 d1_r0 xb
    (truncf .bf16 (shapeCast S256x512 w1 shapeCasts_S1x256x512_S256x512) bitsLt_bf16_f32) (0 : Fin 1) u none
  have e2 := Cert.LibRowRowProduct.matmul_zero_apply dot_S1x4096_S256x4096_S1x256_1_1_0_0_n_n rfl rfl rfl rfl d2_l0 d2_r0 hb
    (truncf .bf16 (shapeCast S256x4096 w2 shapeCasts_S1x256x4096_S256x4096) bitsLt_bf16_f32) (0 : Fin 1) u none
  have e3 : shapeCast S1x256 (shapeCast S256 b shapeCasts_S1x256_S256) shapeCasts_S256_S1x256 = b := shapeCast_shapeCast b _ _
  refine (congrArg₂ (· + ·) (congrArg₂ (· + ·) e1 e2) (congrFun e3 (ix2 0 u))).trans ?_
  refine congrArg₂ (· + ·) (congrArg₂ (· + ·) (Finset.sum_congr rfl fun k _ => ?_) (Finset.sum_congr rfl fun k _ => ?_)) rfl
  · exact congrArg (xb (ix2 0 k) * ·) (Cert.LibLeadUnit.cast_1bc_bc w1 shapeCasts_S1x256x512_S256x512 u k)
  · exact congrArg (hb (ix2 0 k) * ·) (Cert.LibLeadUnit.cast_1bc_bc w2 shapeCasts_S1x256x4096_S256x4096 u k)

/-! ## The body's named values -/

theorem pay1_eq (v0 : Vec Ideal S1x512 .f32) : k0_pay1 (F := Ideal) v0 = v0 := by
  unfold k0_pay1; exact shapeCast_self v0 _
theorem pay2_eq (v3 : Vec Ideal S1x4096 .f32) : k0_pay2 (F := Ideal) v3 = v3 := by
  unfold k0_pay2; exact shapeCast_self v3 _

/-- The input gate's pre-activation. -/
theorem pay3_apply (v0 : Vec Ideal S1x512 .f32) (v3 : Vec Ideal S1x4096 .f32) (v6 : Vec Ideal S1x256x512 .f32)
    (v10 : Vec Ideal S1x256x4096 .f32) (v15 : Vec Ideal S1x256 .f32) (u : Fin 256) :
    k0_pay3 (F := Ideal) v0 v3 v6 v10 v15 (ix2 0 u)
      = gateRow (fun k : Fin 512 => v0 (ix2 0 k)) (fun k : Fin 4096 => v3 (ix2 0 k)) (fun k => v6 (ix3 0 u k))
          (fun k => v10 (ix3 0 u k)) (v15 (ix2 0 u)) := by
  refine (gate_apply (k0_pay1 v0) (k0_pay2 v3) v6 v10 v15 u).trans ?_
  rw [pay1_eq, pay2_eq]

/-- The forget gate's pre-activation. -/
theorem pay4_apply (v0 : Vec Ideal S1x512 .f32) (v3 : Vec Ideal S1x4096 .f32) (v19 : Vec Ideal S1x256x512 .f32)
    (v23 : Vec Ideal S1x256x4096 .f32) (v28 : Vec Ideal S1x256 .f32) (u : Fin 256) :
    k0_pay4 (F := Ideal) v0 v3 v19 v23 v28 (ix2 0 u)
      = gateRow (fun k : Fin 512 => v0 (ix2 0 k)) (fun k : Fin 4096 => v3 (ix2 0 k)) (fun k => v19 (ix3 0 u k))
          (fun k => v23 (ix3 0 u k)) (v28 (ix2 0 u)) := by
  refine (gate_apply (k0_pay1 v0) (k0_pay2 v3) v19 v23 v28 u).trans ?_
  rw [pay1_eq, pay2_eq]

/-- The new cell state of unit u. -/
theorem pay5_apply (v2 : FVec Ideal S1x512 .bf16) (v5 : FVec Ideal S1x4096 .bf16) (v18 v31 : FVec Ideal S1x256 .f32)
    (v32 : Vec Ideal S1x256x512 .f32) (v36 : Vec Ideal S1x256x4096 .f32) (v41 v58 : Vec Ideal S1x256 .f32) (u : Fin 256) :
    k0_pay5 (F := Ideal) v2 v5 v18 v31 v32 v36 v41 v58 (ix2 0 u)
      = cellC (v18 (ix2 0 u)) (v31 (ix2 0 u))
          (gateRow (fun k : Fin 512 => v2 (ix2 0 k)) (fun k : Fin 4096 => v5 (ix2 0 k)) (fun k => v32 (ix3 0 u k))
            (fun k => v36 (ix3 0 u k)) (v41 (ix2 0 u)))
          (v58 (ix2 0 u)) := by
  unfold cellC
  have hg := gate_apply v2 v5 v32 v36 v41 u
  have hc : shapeCast S1x256 v58 shapeCasts_S1x256_S1x256 = v58 := shapeCast_self v58 _
  exact congrArg₂ (· + ·) (congrArg (Ideal.logistic (v31 (ix2 0 u)) * ·) (congrFun hc (ix2 0 u)))
    (congrArg (fun z => Ideal.logistic (v18 (ix2 0 u)) * Ideal.tanh z) hg)

/-- The output of unit u. -/
theorem pay6_apply (v2 : FVec Ideal S1x512 .bf16) (v5 : FVec Ideal S1x4096 .bf16) (v18 v31 : FVec Ideal S1x256 .f32)
    (v32 : Vec Ideal S1x256x512 .f32) (v36 : Vec Ideal S1x256x4096 .f32) (v41 : Vec Ideal S1x256 .f32)
    (v45 : Vec Ideal S1x256x512 .f32) (v49 : Vec Ideal S1x256x4096 .f32) (v54 v58 : Vec Ideal S1x256 .f32) (u : Fin 256) :
    k0_pay6 (F := Ideal) v2 v5 v18 v31 v32 v36 v41 v45 v49 v54 v58 (ix2 0 u)
      = cellH (v18 (ix2 0 u)) (v31 (ix2 0 u))
          (gateRow (fun k : Fin 512 => v2 (ix2 0 k)) (fun k : Fin 4096 => v5 (ix2 0 k)) (fun k => v32 (ix3 0 u k))
            (fun k => v36 (ix3 0 u k)) (v41 (ix2 0 u)))
          (gateRow (fun k : Fin 512 => v2 (ix2 0 k)) (fun k : Fin 4096 => v5 (ix2 0 k)) (fun k => v45 (ix3 0 u k))
            (fun k => v49 (ix3 0 u k)) (v54 (ix2 0 u)))
          (v58 (ix2 0 u)) := by
  unfold cellH
  have hg := gate_apply v2 v5 v45 v49 v54 u
  have h5 := pay5_apply v2 v5 v18 v31 v32 v36 v41 v58 u
  exact congrArg₂ (· * ·) (congrArg Ideal.logistic hg) (congrArg Ideal.tanh h5)

/-! ## The loaded pieces are the blocks at the pieces' offsets -/

theorem ld_w1 (x3 : Vec Ideal S4x256x512 .f32) (g : Fin 4) (inb : ∀ a, (![g.val, 0, 0] : Fin 3 → ℕ) a + S1x256x512.size a ≤ S4x256x512.size a)
    (u : Fin 256) (k : Fin 512) :
    View.ld x3 (Rect.unit (s := S4x256x512) ![g.val, 0, 0] S1x256x512.size inb) (ix3 0 u k) = x3 (ix3 g u k) :=
  Cert.LibUnitLoads.ld_unit_apply x3 _ _ inb (ix3 0 u k) (ix3 g u k) fun a => by
    match a with
    | ⟨0, _⟩ => rfl
    | ⟨1, _⟩ => exact (Nat.zero_add _).symm
    | ⟨2, _⟩ => exact (Nat.zero_add _).symm
theorem ld_w2 (x4 : Vec Ideal S4x256x4096 .f32) (g : Fin 4) (inb : ∀ a, (![g.val, 0, 0] : Fin 3 → ℕ) a + S1x256x4096.size a ≤ S4x256x4096.size a)
    (u : Fin 256) (k : Fin 4096) :
    View.ld x4 (Rect.unit (s := S4x256x4096) ![g.val, 0, 0] S1x256x4096.size inb) (ix3 0 u k) = x4 (ix3 g u k) :=
  Cert.LibUnitLoads.ld_unit_apply x4 _ _ inb (ix3 0 u k) (ix3 g u k) fun a => by
    match a with
    | ⟨0, _⟩ => rfl
    | ⟨1, _⟩ => exact (Nat.zero_add _).symm
    | ⟨2, _⟩ => exact (Nat.zero_add _).symm
theorem ld_b (x5 : Vec Ideal S4x256 .f32) (g : Fin 4) (inb : ∀ a, (![g.val, 0] : Fin 2 → ℕ) a + S1x256.size a ≤ S4x256.size a)
    (u : Fin 256) :
    View.ld x5 (Rect.unit (s := S4x256) ![g.val, 0] S1x256.size inb) (ix2 0 u) = x5 (ix2 g u) :=
  Cert.LibUnitLoads.ld_unit_apply x5 _ _ inb (ix2 0 u) (ix2 g u) fun a => by
    match a with
    | ⟨0, _⟩ => rfl
    | ⟨1, _⟩ => exact (Nat.zero_add _).symm

/-- A gate of unit u of a point, from the point's blocks. -/
def gateB (x0 : Vec Ideal S1x512 .f32) (x1 : Vec Ideal S1x4096 .f32) (x3 : Vec Ideal S4x256x512 .f32)
    (x4 : Vec Ideal S4x256x4096 .f32) (x5 : Vec Ideal S4x256 .f32) (g : Fin 4) (u : Fin 256) : EReal :=
  gateRow (fun k : Fin 512 => x0 (ix2 0 k)) (fun k : Fin 4096 => x1 (ix2 0 k)) (fun k => x3 (ix3 g u k))
    (fun k => x4 (ix3 g u k)) (x5 (ix2 g u))

/-- The same gate spelt over the loaded pieces. -/
theorem gate_loaded (x0 : Vec Ideal S1x512 .f32) (x1 : Vec Ideal S1x4096 .f32) (x3 : Vec Ideal S4x256x512 .f32)
    (x4 : Vec Ideal S4x256x4096 .f32) (x5 : Vec Ideal S4x256 .f32) (g : Fin 4) (inb3 inb4 inb5) (u : Fin 256) :
    gateRow (fun k : Fin 512 => x0 (ix2 0 k)) (fun k : Fin 4096 => x1 (ix2 0 k))
        (fun k => View.ld x3 (Rect.unit (s := S4x256x512) ![g.val, 0, 0] S1x256x512.size inb3) (ix3 0 u k))
        (fun k => View.ld x4 (Rect.unit (s := S4x256x4096) ![g.val, 0, 0] S1x256x4096.size inb4) (ix3 0 u k))
        (View.ld x5 (Rect.unit (s := S4x256) ![g.val, 0] S1x256.size inb5) (ix2 0 u))
      = gateB x0 x1 x3 x4 x5 g u := by
  unfold gateB
  rw [funext (ld_w1 x3 g inb3 u), funext (ld_w2 x4 g inb4 u), ld_b x5 g inb5 u]

/-! ## The stored row -/

/-- Entry u of what the body leaves in the output window's buffer: the unit's output from its four gates and the old
    cell state, all read off the point's blocks. -/
theorem out_apply (x0 : Vec Ideal S1x512 .f32) (x1 : Vec Ideal S1x4096 .f32) (x2 : Vec Ideal S1x256 .f32)
    (x3 : Vec Ideal S4x256x512 .f32) (x4 : Vec Ideal S4x256x4096 .f32) (x5 : Vec Ideal S4x256 .f32) (u : Fin 256) :
    out0_6 (F := Ideal) x0 x1 x2 x3 x4 x5 (ix2 0 u)
      = cellH (gateB x0 x1 x3 x4 x5 0 u) (gateB x0 x1 x3 x4 x5 1 u) (gateB x0 x1 x3 x4 x5 2 u) (gateB x0 x1 x3 x4 x5 3 u)
          (x2 (ix2 0 u)) := by
  unfold out0_6
  rw [View.canon_unit_zero hz2]
  simp only [View.ld_unit_zero (S := S1x512) hz2, View.ld_unit_zero (S := S1x4096) hz2, View.ld_unit_zero (S := S1x256) hz2]
  rw [pay6_apply, pay3_apply, pay4_apply, pay1_eq, pay2_eq]
  exact congr (congr (congr (congr (congrArg cellH (gate_loaded x0 x1 x3 x4 x5 0 _ _ _ u)) (gate_loaded x0 x1 x3 x4 x5 1 _ _ _ u))
    (gate_loaded x0 x1 x3 x4 x5 2 _ _ _ u)) (gate_loaded x0 x1 x3 x4 x5 3 _ _ _ u)) rfl

end Cert.KernelIdeal.Body0

end
-- ==== Proof.Region0.lean ====
/-
  Cell 1's grid, read as one function of its six arrays.

  The grid has 16 points. The input row and the hidden row are whole blocks at every point; point t takes units
  256·t … 256·t + 255 of the old cell state, of each gate's rows of the two weight arrays and of each gate's biases, and
  writes back units 256·t … 256·t + 255 of the output row. So what point t writes back is block t of the function G whose
  entry j is the cell function of unit j's own rows, and the 16 blocks cover the output row: after the grid the output
  array is G of the six arrays as the grid found them.
-/
import proofs.«125027_j23545010717534_2_alg».proof.Proof.Body0

set_option maxRecDepth 16384

noncomputable section

namespace Cert.KernelIdeal.Region0

open Cert.KernelIdeal Cert.KernelIdeal.Gen Cert.Lstm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The column of an index of the output row. -/
def col (i : S1x4096.Idx) : Fin 4096 := ⟨(i 1).val, (i 1).isLt⟩

/-- The unit of an index of a point's output block. -/
def colB (y : S1x256.Idx) : Fin 256 := ⟨(y 1).val, (y 1).isLt⟩

/-- Gate g of unit j from the grid's arrays. -/
def gateA (A0 : S1x512.Idx → EReal) (A1 : S1x4096.Idx → EReal) (A3 : S4x4096x512.Idx → EReal) (A4 : S4x4096x4096.Idx → EReal)
    (A5 : S4x4096.Idx → EReal) (g : Fin 4) (j : Fin 4096) : EReal :=
  gateRow (fun k : Fin 512 => A0 (ix2 0 k)) (fun k : Fin 4096 => A1 (ix2 0 k)) (fun k => A3 (ix3 g j k))
    (fun k => A4 (ix3 g j k)) (A5 (ix2 g j))

/-- The output row as one function of the grid's arrays. -/
def G (A0 : S1x512.Idx → EReal) (A1 A2 : S1x4096.Idx → EReal) (A3 : S4x4096x512.Idx → EReal) (A4 : S4x4096x4096.Idx → EReal)
    (A5 : S4x4096.Idx → EReal) : S1x4096.Idx → EReal := fun i =>
  cellH (gateA A0 A1 A3 A4 A5 0 (col i)) (gateA A0 A1 A3 A4 A5 1 (col i)) (gateA A0 A1 A3 A4 A5 2 (col i))
    (gateA A0 A1 A3 A4 A5 3 (col i)) (A2 (ix2 0 (col i)))

theorem G_apply (A0 : S1x512.Idx → EReal) (A1 A2 : S1x4096.Idx → EReal) (A3 : S4x4096x512.Idx → EReal) (A4 : S4x4096x4096.Idx → EReal)
    (A5 : S4x4096.Idx → EReal) (j : Fin 4096) :
    G A0 A1 A2 A3 A4 A5 (ix2 0 j) = cellH (gateA A0 A1 A3 A4 A5 0 j) (gateA A0 A1 A3 A4 A5 1 j) (gateA A0 A1 A3 A4 A5 2 j)
      (gateA A0 A1 A3 A4 A5 3 j) (A2 (ix2 0 j)) := rfl

/-- The printed index maps, decided over the grid: the two rows stay at block (0, 0), the other windows move along the
    unit axis with the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-! ## Each input block read where the array has it -/

theorem blk_x (c : Dev nD) (t : Fin cfg0.N) (k : Fin 512) :
    (iblk0 V c 0 t : Vec Ideal S1x512 .f32) (ix2 0 k) = (V c main_v0 : S1x512.Idx → EReal) (ix2 0 k) := by
  obtain ⟨e0, e1, -⟩ := idx_facts t
  unfold iblk0
  rw [View.read_apply]
  show (V c main_v0 : S1x512.Idx → EReal) _ = (V c main_v0 : S1x512.Idx → EReal) _
  refine congrArg (V c main_v0 : S1x512.Idx → EReal) ?_
  funext a
  apply Fin.ext
  match a with
  | ⟨0, _⟩ => show win0_0.index t (0 : Fin 2) * 1 + 1 * (0 : Fin 1).val = (0 : Fin 1).val; rw [e0]; rfl
  | ⟨1, _⟩ => show win0_0.index t (1 : Fin 2) * 512 + 1 * k.val = k.val; rw [e1]; omega

theorem blk_h (c : Dev nD) (t : Fin cfg0.N) (k : Fin 4096) :
    (iblk0 V c 1 t : Vec Ideal S1x4096 .f32) (ix2 0 k) = (V c main_v2 : S1x4096.Idx → EReal) (ix2 0 k) := by
  obtain ⟨-, -, e0, e1, -⟩ := idx_facts t
  unfold iblk0
  rw [View.read_apply]
  show (V c main_v2 : S1x4096.Idx → EReal) _ = (V c main_v2 : S1x4096.Idx → EReal) _
  refine congrArg (V c main_v2 : S1x4096.Idx → EReal) ?_
  funext a
  apply Fin.ext
  match a with
  | ⟨0, _⟩ => show win0_1.index t (0 : Fin 2) * 1 + 1 * (0 : Fin 1).val = (0 : Fin 1).val; rw [e0]; rfl
  | ⟨1, _⟩ => show win0_1.index t (1 : Fin 2) * 4096 + 1 * k.val = k.val; rw [e1]; omega

theorem blk_c (c : Dev nD) (t : Fin cfg0.N) (u : Fin 256) (j : Fin 4096) (hj : j.val = t.val * 256 + u.val) :
    (iblk0 V c 2 t : Vec Ideal S1x256 .f32) (ix2 0 u) = (V c main_v4 : S1x4096.Idx → EReal) (ix2 0 j) := by
  obtain ⟨-, -, -, -, e0, e1, -⟩ := idx_facts t
  unfold iblk0
  rw [View.read_apply]
  show (V c main_v4 : S1x4096.Idx → EReal) _ = (V c main_v4 : S1x4096.Idx → EReal) _
  refine congrArg (V c main_v4 : S1x4096.Idx → EReal) ?_
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 256 + 1 * u.val = j.val; rw [e1, hj]; omega

theorem blk_w1 (c : Dev nD) (t : Fin cfg0.N) (g : Fin 4) (u : Fin 256) (j : Fin 4096) (hj : j.val = t.val * 256 + u.val)
    (k : Fin 512) :
    (iblk0 V c 3 t : Vec Ideal S4x256x512 .f32) (ix3 g u k) = (V c main_v5 : S4x4096x512.Idx → EReal) (ix3 g j k) := by
  obtain ⟨-, -, -, -, -, -, e0, e1, e2, -⟩ := idx_facts t
  unfold iblk0
  rw [View.read_apply]
  show (V c main_v5 : S4x4096x512.Idx → EReal) _ = (V c main_v5 : S4x4096x512.Idx → EReal) _
  refine congrArg (V c main_v5 : S4x4096x512.Idx → EReal) ?_
  funext a
  apply Fin.ext
  match a with
  | ⟨0, _⟩ => show win0_3.index t (0 : Fin 3) * 4 + 1 * g.val = g.val; rw [e0]; omega
  | ⟨1, _⟩ => show win0_3.index t (1 : Fin 3) * 256 + 1 * u.val = j.val; rw [e1, hj]; omega
  | ⟨2, _⟩ => show win0_3.index t (2 : Fin 3) * 512 + 1 * k.val = k.val; rw [e2]; omega

theorem blk_w2 (c : Dev nD) (t : Fin cfg0.N) (g : Fin 4) (u : Fin 256) (j : Fin 4096) (hj : j.val = t.val * 256 + u.val)
    (k : Fin 4096) :
    (iblk0 V c 4 t : Vec Ideal S4x256x4096 .f32) (ix3 g u k) = (V c main_v6 : S4x4096x4096.Idx → EReal) (ix3 g j k) := by
  obtain ⟨-, -, -, -, -, -, -, -, -, e0, e1, e2, -⟩ := idx_facts t
  unfold iblk0
  rw [View.read_apply]
  show (V c main_v6 : S4x4096x4096.Idx → EReal) _ = (V c main_v6 : S4x4096x4096.Idx → EReal) _
  refine congrArg (V c main_v6 : S4x4096x4096.Idx → EReal) ?_
  funext a
  apply Fin.ext
  match a with
  | ⟨0, _⟩ => show win0_4.index t (0 : Fin 3) * 4 + 1 * g.val = g.val; rw [e0]; omega
  | ⟨1, _⟩ => show win0_4.index t (1 : Fin 3) * 256 + 1 * u.val = j.val; rw [e1, hj]; omega
  | ⟨2, _⟩ => show win0_4.index t (2 : Fin 3) * 4096 + 1 * k.val = k.val; rw [e2]; omega

theorem blk_b (c : Dev nD) (t : Fin cfg0.N) (g : Fin 4) (u : Fin 256) (j : Fin 4096) (hj : j.val = t.val * 256 + u.val) :
    (iblk0 V c 5 t : Vec Ideal S4x256 .f32) (ix2 g u) = (V c main_v8 : S4x4096.Idx → EReal) (ix2 g j) := by
  obtain ⟨-, -, -, -, -, -, -, -, -, -, -, -, e0, e1, -⟩ := idx_facts t
  unfold iblk0
  rw [View.read_apply]
  show (V c main_v8 : S4x4096.Idx → EReal) _ = (V c main_v8 : S4x4096.Idx → EReal) _
  refine congrArg (V c main_v8 : S4x4096.Idx → EReal) ?_
  funext a
  apply Fin.ext
  match a with
  | ⟨0, _⟩ => show win0_5.index t (0 : Fin 2) * 4 + 1 * g.val = g.val; rw [e0]; omega
  | ⟨1, _⟩ => show win0_5.index t (1 : Fin 2) * 256 + 1 * u.val = j.val; rw [e1, hj]; omega

/-- A gate of unit u of point t is the gate of unit 256·t + u of the arrays. -/
theorem gate_blk (c : Dev nD) (t : Fin cfg0.N) (g : Fin 4) (u : Fin 256) (j : Fin 4096) (hj : j.val = t.val * 256 + u.val) :
    Body0.gateB (iblk0 V c 0 t) (iblk0 V c 1 t) (iblk0 V c 3 t) (iblk0 V c 4 t) (iblk0 V c 5 t) g u
      = gateA (V c main_v0) (V c main_v2) (V c main_v5) (V c main_v6) (V c main_v8) g j := by
  unfold Body0.gateB gateA
  rw [funext (blk_x V c t), funext (blk_h V c t), funext (blk_w1 V c t g u j hj), funext (blk_w2 V c t g u j hj),
    blk_b V c t g u j hj]

/-- Entry y of the stored row, for y an index of the block's literal shape. -/
theorem out_at (x0 : Vec Ideal S1x512 .f32) (x1 : Vec Ideal S1x4096 .f32) (x2 : Vec Ideal S1x256 .f32)
    (x3 : Vec Ideal S4x256x512 .f32) (x4 : Vec Ideal S4x256x4096 .f32) (x5 : Vec Ideal S4x256 .f32) (y : S1x256.Idx) :
    out0_6 (F := Ideal) x0 x1 x2 x3 x4 x5 y
      = cellH (Body0.gateB x0 x1 x3 x4 x5 0 (colB y)) (Body0.gateB x0 x1 x3 x4 x5 1 (colB y))
          (Body0.gateB x0 x1 x3 x4 x5 2 (colB y)) (Body0.gateB x0 x1 x3 x4 x5 3 (colB y)) (x2 (ix2 0 (colB y))) := by
  obtain ⟨p, u, rfl⟩ : ∃ (p : Fin 1) (u : Fin 256), y = ix2 p u := ⟨y 0, y 1, eq_ix2 y⟩
  obtain rfl : p = 0 := Subsingleton.elim _ _
  exact Body0.out_apply x0 x1 x2 x3 x4 x5 u

/-! ## What a point writes back, the cover, the array after the grid -/

/-- What point t writes back is block t of G of the arrays as the grid finds them. -/
theorem flushed_eq (c : Dev nD) (t : Fin cfg0.N) :
    (dat0 V c).flushed 6 t = ((cfg0.win 6).blk t).view.read (Elt Ideal)
      (G (V c main_v0) (V c main_v2) (V c main_v4) (V c main_v5) (V c main_v6) (V c main_v8)) := by
  show (cfg0.win 6).cut (grid0.coords t) ((dat0 V c).after 6 t) = _
  rw [after0_6]
  funext y
  obtain ⟨-, -, -, -, -, -, -, -, -, -, -, -, -, -, e60, e61⟩ := idx_facts t
  have hN : cfg0.N = 16 := N_0
  have ht : t.val < 16 := by have := t.isLt; omega
  have hy1 : (y 1).val < 256 := (y 1).isLt
  have hj : t.val * 256 + (y 1).val < 4096 := by omega
  show out0_6 (iblk0 V c 0 t) (iblk0 V c 1 t) (iblk0 V c 2 t) (iblk0 V c 3 t) (iblk0 V c 4 t) (iblk0 V c 5 t) y
    = G (V c main_v0) (V c main_v2) (V c main_v4) (V c main_v5) (V c main_v6) (V c main_v8) (((cfg0.win 6).blk t).view.emb y)
  refine (out_at (iblk0 V c 0 t) (iblk0 V c 1 t) (iblk0 V c 2 t) (iblk0 V c 3 t) (iblk0 V c 4 t) (iblk0 V c 5 t) y).trans ?_
  have hcol : col (((cfg0.win 6).blk t).view.emb y) = ⟨t.val * 256 + (y 1).val, hj⟩ :=
    Fin.ext (by show win0_6.index t (1 : Fin 2) * 256 + 1 * (y 1).val = t.val * 256 + (y 1).val; rw [e61]; omega)
  unfold G
  rw [hcol]
  rw [gate_blk V c t 0 (colB y) ⟨t.val * 256 + (y 1).val, hj⟩ rfl, gate_blk V c t 1 (colB y) ⟨t.val * 256 + (y 1).val, hj⟩ rfl,
    gate_blk V c t 2 (colB y) ⟨t.val * 256 + (y 1).val, hj⟩ rfl, gate_blk V c t 3 (colB y) ⟨t.val * 256 + (y 1).val, hj⟩ rfl,
    blk_c V c t (colB y) ⟨t.val * 256 + (y 1).val, hj⟩ rfl]

/-- An index of the output row is in point t's block iff each coordinate is in the block's range on its axis. -/
theorem mem_blk (t : Fin cfg0.N) (i : S1x4096.Idx) :
    i ∈ ((cfg0.win 6).blk t).view.set ↔ ∀ a : Fin 2, win0_6.index t a * S1x256.size a ≤ (i a).val ∧ (i a).val < win0_6.index t a * S1x256.size a + S1x256.size a := by
  show i ∈ ((View.whole main_v9_0).slice (win0_6.rect t)).set ↔ _
  rw [View.set_slice_whole, Rect.mem_set_unit]
  exact Iff.rfl

/-- Every index of the output row lies in the block of the point its unit divided by 256 names. -/
theorem cover (i : S1x4096.Idx) : ∃ t : Fin cfg0.N, (cfg0.win 6).flush t = true ∧ i ∈ ((cfg0.win 6).blk t).view.set := by
  have h0 : (i 0).val < 1 := (i 0).isLt
  have h1 : (i 1).val < 4096 := (i 1).isLt
  have hN : cfg0.N = 16 := N_0
  have htl : (i 1).val / 256 < cfg0.N := by rw [hN]; omega
  obtain ⟨-, -, -, -, -, -, -, -, -, -, -, -, -, -, e60, e61⟩ := idx_facts ⟨(i 1).val / 256, htl⟩
  refine ⟨⟨(i 1).val / 256, htl⟩, flush0_6 _, ?_⟩
  rw [mem_blk]
  intro a
  match a with
  | ⟨0, _⟩ =>
    show win0_6.index ⟨(i 1).val / 256, htl⟩ (0 : Fin 2) * 1 ≤ (i 0).val ∧ (i 0).val < win0_6.index ⟨(i 1).val / 256, htl⟩ (0 : Fin 2) * 1 + 1
    rw [e60]; omega
  | ⟨1, _⟩ =>
    show win0_6.index ⟨(i 1).val / 256, htl⟩ (1 : Fin 2) * 256 ≤ (i 1).val ∧ (i 1).val < win0_6.index ⟨(i 1).val / 256, htl⟩ (1 : Fin 2) * 256 + 256
    rw [e61]
    show (i 1).val / 256 * 256 ≤ (i 1).val ∧ (i 1).val < (i 1).val / 256 * 256 + 256
    omega

/-- The output array after the grid: G of the six arrays as the grid found them. -/
theorem final (c : Dev nD) : (dat0 V c).arrAt 6 cfg0.N
    = G (V c main_v0) (V c main_v2) (V c main_v4) (V c main_v5) (V c main_v6) (V c main_v8) :=
  (dat0 V c).arrAt_eq_of_cover 6 (G (V c main_v0) (V c main_v2) (V c main_v4) (V c main_v5) (V c main_v6) (V c main_v8))
    (fun t _ => flushed_eq V c t) cover

end Cert.KernelIdeal.Region0

end
-- ==== Proof.Body1.lean ====
/-
  What one grid point of cell 2 stores for one unit.

  The body loads the input row, the hidden row, the point's slice of the old cell state, and for each of the four gates
  the point's rows of the two weight arrays and of the summed bias. For a unit u of the point's 128 units it forms each
  gate's pre-activation — the input row against row u of that gate's input weights, plus the hidden row against row u
  of its hidden weights (both products round their operands to a narrower format, which is the identity on extended
  reals, and start from a zero accumulator), plus the bias at (gate, u) — and stores σ(o)·tanh(σ(f)·c + σ(i)·tanh(g)).
  Each loaded piece is the block read at the piece's offset, so entry u of the stored row is the cell function of the
  blocks' entries in row u of each gate.
-/
import proofs.«125027_j23545010717534_2_alg».proof.Proof.Gen.KernelIdeal.Frame
import proofs.«125027_j23545010717534_2_alg».proof.Proof.Cell
import proofs.«125027_j23545010717534_2_alg».proof.Proof.LibRowRowProduct
import proofs.«125027_j23545010717534_2_alg».proof.Proof.LibLeadUnit
import proofs.«125027_j23545010717534_2_alg».proof.Proof.LibUnitLoads
import Idealize.ShloMosaic.Lib.ValueIdx
import Idealize.ShloMosaic.Lib.Pipeline.Value

noncomputable section

namespace Cert.KernelIdeal.Body1

open Cert.KernelIdeal Cert.KernelIdeal.Gen Cert.Lstm
open Idealize.ShloMosaic Idealize.ShloMosaic.ValueIdx

theorem hz2 : (![0, 0] : Fin 2 → Nat) = fun _ => 0 := funext fun a => by fin_cases a <;> rfl

/-! ## The two products' dimension records: the row of the result is the row of the left operand, the column of the
    result is the row of the right operand -/

theorem d1_l0 (j : S1x128.Idx) (k : dot_S1x4096_S128x4096_S1x128_1_1_0_0_n_n.contr.Idx) : (dot_S1x4096_S128x4096_S1x128_1_1_0_0_n_n.lhsIdx j k 0).val = (j 0).val := by
  unfold DotDims.lhsIdx
  rw [dif_neg (show ¬(0 : Fin S1x4096.rank) ∈ dot_S1x4096_S128x4096_S1x128_1_1_0_0_n_n.lhsBatch by decide), dif_pos (show (0 : Fin S1x4096.rank) ∈ dot_S1x4096_S128x4096_S1x128_1_1_0_0_n_n.lhsNonContracting by decide)]
  rfl
theorem d1_r0 (j : S1x128.Idx) (k : dot_S1x4096_S128x4096_S1x128_1_1_0_0_n_n.contr.Idx) : (dot_S1x4096_S128x4096_S1x128_1_1_0_0_n_n.rhsIdx j k 0).val = (j 1).val := by
  unfold DotDims.rhsIdx
  rw [dif_neg (show ¬(0 : Fin S128x4096.rank) ∈ dot_S1x4096_S128x4096_S1x128_1_1_0_0_n_n.rhsBatch by decide), dif_pos (show (0 : Fin S128x4096.rank) ∈ dot_S1x4096_S128x4096_S1x128_1_1_0_0_n_n.rhsNonContracting by decide)]
  rfl
theorem d2_l0 (j : S1x128.Idx) (k : dot_S1x4096_S128x4096_S1x128_1_1_0_0_n_n.contr.Idx) : (dot_S1x4096_S128x4096_S1x128_1_1_0_0_n_n.lhsIdx j k 0).val = (j 0).val := by
  unfold DotDims.lhsIdx
  rw [dif_neg (show ¬(0 : Fin S1x4096.rank) ∈ dot_S1x4096_S128x4096_S1x128_1_1_0_0_n_n.lhsBatch by decide), dif_pos (show (0 : Fin S1x4096.rank) ∈ dot_S1x4096_S128x4096_S1x128_1_1_0_0_n_n.lhsNonContracting by decide)]
  rfl
theorem d2_r0 (j : S1x128.Idx) (k : dot_S1x4096_S128x4096_S1x128_1_1_0_0_n_n.contr.Idx) : (dot_S1x4096_S128x4096_S1x128_1_1_0_0_n_n.rhsIdx j k 0).val = (j 1).val := by
  unfold DotDims.rhsIdx
  rw [dif_neg (show ¬(0 : Fin S128x4096.rank) ∈ dot_S1x4096_S128x4096_S1x128_1_1_0_0_n_n.rhsBatch by decide), dif_pos (show (0 : Fin S128x4096.rank) ∈ dot_S1x4096_S128x4096_S1x128_1_1_0_0_n_n.rhsNonContracting by decide)]
  rfl

/-! ## One gate of one unit from the pieces the body holds -/

/-- A gate's pre-activation at unit u from the two rounded rows, one gate's slab of each weight block and one gate's row
    of the bias block. -/
theorem gate_apply (xb : FVec Ideal S1x4096 .bf16) (hb : FVec Ideal S1x4096 .bf16) (w1 : Vec Ideal S1x128x4096 .f32)
    (w2 : Vec Ideal S1x128x4096 .f32) (b : Vec Ideal S1x128 .f32) (u : Fin 128) :
    addf (addf (matmul dot_S1x4096_S128x4096_S1x128_1_1_0_0_n_n none xb (truncf .bf16 (shapeCast S128x4096 w1 shapeCasts_S1x128x4096_S128x4096) bitsLt_bf16_f32) (constant S1x128 .f32 0x00000000#32))
               (matmul dot_S1x4096_S128x4096_S1x128_1_1_0_0_n_n none hb (truncf .bf16 (shapeCast S128x4096 w2 shapeCasts_S1x128x4096_S128x4096) bitsLt_bf16_f32) (constant S1x128 .f32 0x00000000#32)))
         (shapeCast S1x128 (shapeCast S128 b shapeCasts_S1x128_S128) shapeCasts_S128_S1x128) (ix2 0 u)
      = gateRow (fun k : Fin 4096 => xb (ix2 0 k)) (fun k : Fin 4096 => hb (ix2 0 k)) (fun k => w1 (ix3 0 u k))
          (fun k => w2 (ix3 0 u k)) (b (ix2 0 u)) := by
  unfold gateRow
  have e1 := Cert.LibRowRowProduct.matmul_zero_apply dot_S1x4096_S128x4096_S1x128_1_1_0_0_n_n rfl rfl rfl rfl d1_l0 d1_r0 xb
    (truncf .bf16 (shapeCast S128x4096 w1 shapeCasts_S1x128x4096_S128x4096) bitsLt_bf16_f32) (0 : Fin 1) u none
  have e2 := Cert.LibRowRowProduct.matmul_zero_apply dot_S1x4096_S128x4096_S1x128_1_1_0_0_n_n rfl rfl rfl rfl d2_l0 d2_r0 hb
    (truncf .bf16 (shapeCast S128x4096 w2 shapeCasts_S1x128x4096_S128x4096) bitsLt_bf16_f32) (0 : Fin 1) u none
  have e3 : shapeCast S1x128 (shapeCast S128 b shapeCasts_S1x128_S128) shapeCasts_S128_S1x128 = b := shapeCast_shapeCast b _ _
  refine (congrArg₂ (· + ·) (congrArg₂ (· + ·) e1 e2) (congrFun e3 (ix2 0 u))).trans ?_
  refine congrArg₂ (· + ·) (congrArg₂ (· + ·) (Finset.sum_congr rfl fun k _ => ?_) (Finset.sum_congr rfl fun k _ => ?_)) rfl
  · exact congrArg (xb (ix2 0 k) * ·) (Cert.LibLeadUnit.cast_1bc_bc w1 shapeCasts_S1x128x4096_S128x4096 u k)
  · exact congrArg (hb (ix2 0 k) * ·) (Cert.LibLeadUnit.cast_1bc_bc w2 shapeCasts_S1x128x4096_S128x4096 u k)

/-! ## The body's named values -/

theorem pay1_eq (v0 : Vec Ideal S1x4096 .f32) : k1_pay1 (F := Ideal) v0 = v0 := by
  unfold k1_pay1; exact shapeCast_self v0 _
theorem pay2_eq (v3 : Vec Ideal S1x4096 .f32) : k1_pay2 (F := Ideal) v3 = v3 := by
  unfold k1_pay2; exact shapeCast_self v3 _

/-- The input gate's pre-activation. -/
theorem pay3_apply (v0 : Vec Ideal S1x4096 .f32) (v3 : Vec Ideal S1x4096 .f32) (v6 : Vec Ideal S1x128x4096 .f32)
    (v10 : Vec Ideal S1x128x4096 .f32) (v15 : Vec Ideal S1x128 .f32) (u : Fin 128) :
    k1_pay3 (F := Ideal) v0 v3 v6 v10 v15 (ix2 0 u)
      = gateRow (fun k : Fin 4096 => v0 (ix2 0 k)) (fun k : Fin 4096 => v3 (ix2 0 k)) (fun k => v6 (ix3 0 u k))
          (fun k => v10 (ix3 0 u k)) (v15 (ix2 0 u)) := by
  refine (gate_apply (k1_pay1 v0) (k1_pay2 v3) v6 v10 v15 u).trans ?_
  rw [pay1_eq, pay2_eq]

/-- The forget gate's pre-activation. -/
theorem pay4_apply (v0 : Vec Ideal S1x4096 .f32) (v3 : Vec Ideal S1x4096 .f32) (v19 : Vec Ideal S1x128x4096 .f32)
    (v23 : Vec Ideal S1x128x4096 .f32) (v28 : Vec Ideal S1x128 .f32) (u : Fin 128) :
    k1_pay4 (F := Ideal) v0 v3 v19 v23 v28 (ix2 0 u)
      = gateRow (fun k : Fin 4096 => v0 (ix2 0 k)) (fun k : Fin 4096 => v3 (ix2 0 k)) (fun k => v19 (ix3 0 u k))
          (fun k => v23 (ix3 0 u k)) (v28 (ix2 0 u)) := by
  refine (gate_apply (k1_pay1 v0) (k1_pay2 v3) v19 v23 v28 u).trans ?_
  rw [pay1_eq, pay2_eq]

/-- The new cell state of unit u. -/
theorem pay5_apply (v2 : FVec Ideal S1x4096 .bf16) (v5 : FVec Ideal S1x4096 .bf16) (v18 v31 : FVec Ideal S1x128 .f32)
    (v32 : Vec Ideal S1x128x4096 .f32) (v36 : Vec Ideal S1x128x4096 .f32) (v41 v58 : Vec Ideal S1x128 .f32) (u : Fin 128) :
    k1_pay5 (F := Ideal) v2 v5 v18 v31 v32 v36 v41 v58 (ix2 0 u)
      = cellC (v18 (ix2 0 u)) (v31 (ix2 0 u))
          (gateRow (fun k : Fin 4096 => v2 (ix2 0 k)) (fun k : Fin 4096 => v5 (ix2 0 k)) (fun k => v32 (ix3 0 u k))
            (fun k => v36 (ix3 0 u k)) (v41 (ix2 0 u)))
          (v58 (ix2 0 u)) := by
  unfold cellC
  have hg := gate_apply v2 v5 v32 v36 v41 u
  have hc : shapeCast S1x128 v58 shapeCasts_S1x128_S1x128 = v58 := shapeCast_self v58 _
  exact congrArg₂ (· + ·) (congrArg (Ideal.logistic (v31 (ix2 0 u)) * ·) (congrFun hc (ix2 0 u)))
    (congrArg (fun z => Ideal.logistic (v18 (ix2 0 u)) * Ideal.tanh z) hg)

/-- The output of unit u. -/
theorem pay6_apply (v2 : FVec Ideal S1x4096 .bf16) (v5 : FVec Ideal S1x4096 .bf16) (v18 v31 : FVec Ideal S1x128 .f32)
    (v32 : Vec Ideal S1x128x4096 .f32) (v36 : Vec Ideal S1x128x4096 .f32) (v41 : Vec Ideal S1x128 .f32)
    (v45 : Vec Ideal S1x128x4096 .f32) (v49 : Vec Ideal S1x128x4096 .f32) (v54 v58 : Vec Ideal S1x128 .f32) (u : Fin 128) :
    k1_pay6 (F := Ideal) v2 v5 v18 v31 v32 v36 v41 v45 v49 v54 v58 (ix2 0 u)
      = cellH (v18 (ix2 0 u)) (v31 (ix2 0 u))
          (gateRow (fun k : Fin 4096 => v2 (ix2 0 k)) (fun k : Fin 4096 => v5 (ix2 0 k)) (fun k => v32 (ix3 0 u k))
            (fun k => v36 (ix3 0 u k)) (v41 (ix2 0 u)))
          (gateRow (fun k : Fin 4096 => v2 (ix2 0 k)) (fun k : Fin 4096 => v5 (ix2 0 k)) (fun k => v45 (ix3 0 u k))
            (fun k => v49 (ix3 0 u k)) (v54 (ix2 0 u)))
          (v58 (ix2 0 u)) := by
  unfold cellH
  have hg := gate_apply v2 v5 v45 v49 v54 u
  have h5 := pay5_apply v2 v5 v18 v31 v32 v36 v41 v58 u
  exact congrArg₂ (· * ·) (congrArg Ideal.logistic hg) (congrArg Ideal.tanh h5)

/-! ## The loaded pieces are the blocks at the pieces' offsets -/

theorem ld_w1 (x3 : Vec Ideal S4x128x4096 .f32) (g : Fin 4) (inb : ∀ a, (![g.val, 0, 0] : Fin 3 → ℕ) a + S1x128x4096.size a ≤ S4x128x4096.size a)
    (u : Fin 128) (k : Fin 4096) :
    View.ld x3 (Rect.unit (s := S4x128x4096) ![g.val, 0, 0] S1x128x4096.size inb) (ix3 0 u k) = x3 (ix3 g u k) :=
  Cert.LibUnitLoads.ld_unit_apply x3 _ _ inb (ix3 0 u k) (ix3 g u k) fun a => by
    match a with
    | ⟨0, _⟩ => rfl
    | ⟨1, _⟩ => exact (Nat.zero_add _).symm
    | ⟨2, _⟩ => exact (Nat.zero_add _).symm
theorem ld_w2 (x4 : Vec Ideal S4x128x4096 .f32) (g : Fin 4) (inb : ∀ a, (![g.val, 0, 0] : Fin 3 → ℕ) a + S1x128x4096.size a ≤ S4x128x4096.size a)
    (u : Fin 128) (k : Fin 4096) :
    View.ld x4 (Rect.unit (s := S4x128x4096) ![g.val, 0, 0] S1x128x4096.size inb) (ix3 0 u k) = x4 (ix3 g u k) :=
  Cert.LibUnitLoads.ld_unit_apply x4 _ _ inb (ix3 0 u k) (ix3 g u k) fun a => by
    match a with
    | ⟨0, _⟩ => rfl
    | ⟨1, _⟩ => exact (Nat.zero_add _).symm
    | ⟨2, _⟩ => exact (Nat.zero_add _).symm
theorem ld_b (x5 : Vec Ideal S4x128 .f32) (g : Fin 4) (inb : ∀ a, (![g.val, 0] : Fin 2 → ℕ) a + S1x128.size a ≤ S4x128.size a)
    (u : Fin 128) :
    View.ld x5 (Rect.unit (s := S4x128) ![g.val, 0] S1x128.size inb) (ix2 0 u) = x5 (ix2 g u) :=
  Cert.LibUnitLoads.ld_unit_apply x5 _ _ inb (ix2 0 u) (ix2 g u) fun a => by
    match a with
    | ⟨0, _⟩ => rfl
    | ⟨1, _⟩ => exact (Nat.zero_add _).symm

/-- A gate of unit u of a point, from the point's blocks. -/
def gateB (x0 : Vec Ideal S1x4096 .f32) (x1 : Vec Ideal S1x4096 .f32) (x3 : Vec Ideal S4x128x4096 .f32)
    (x4 : Vec Ideal S4x128x4096 .f32) (x5 : Vec Ideal S4x128 .f32) (g : Fin 4) (u : Fin 128) : EReal :=
  gateRow (fun k : Fin 4096 => x0 (ix2 0 k)) (fun k : Fin 4096 => x1 (ix2 0 k)) (fun k => x3 (ix3 g u k))
    (fun k => x4 (ix3 g u k)) (x5 (ix2 g u))

/-- The same gate spelt over the loaded pieces. -/
theorem gate_loaded (x0 : Vec Ideal S1x4096 .f32) (x1 : Vec Ideal S1x4096 .f32) (x3 : Vec Ideal S4x128x4096 .f32)
    (x4 : Vec Ideal S4x128x4096 .f32) (x5 : Vec Ideal S4x128 .f32) (g : Fin 4) (inb3 inb4 inb5) (u : Fin 128) :
    gateRow (fun k : Fin 4096 => x0 (ix2 0 k)) (fun k : Fin 4096 => x1 (ix2 0 k))
        (fun k => View.ld x3 (Rect.unit (s := S4x128x4096) ![g.val, 0, 0] S1x128x4096.size inb3) (ix3 0 u k))
        (fun k => View.ld x4 (Rect.unit (s := S4x128x4096) ![g.val, 0, 0] S1x128x4096.size inb4) (ix3 0 u k))
        (View.ld x5 (Rect.unit (s := S4x128) ![g.val, 0] S1x128.size inb5) (ix2 0 u))
      = gateB x0 x1 x3 x4 x5 g u := by
  unfold gateB
  rw [funext (ld_w1 x3 g inb3 u), funext (ld_w2 x4 g inb4 u), ld_b x5 g inb5 u]

/-! ## The stored row -/

/-- Entry u of what the body leaves in the output window's buffer: the unit's output from its four gates and the old
    cell state, all read off the point's blocks. -/
theorem out_apply (x0 : Vec Ideal S1x4096 .f32) (x1 : Vec Ideal S1x4096 .f32) (x2 : Vec Ideal S1x128 .f32)
    (x3 : Vec Ideal S4x128x4096 .f32) (x4 : Vec Ideal S4x128x4096 .f32) (x5 : Vec Ideal S4x128 .f32) (u : Fin 128) :
    out1_6 (F := Ideal) x0 x1 x2 x3 x4 x5 (ix2 0 u)
      = cellH (gateB x0 x1 x3 x4 x5 0 u) (gateB x0 x1 x3 x4 x5 1 u) (gateB x0 x1 x3 x4 x5 2 u) (gateB x0 x1 x3 x4 x5 3 u)
          (x2 (ix2 0 u)) := by
  unfold out1_6
  rw [View.canon_unit_zero hz2]
  simp only [View.ld_unit_zero (S := S1x4096) hz2, View.ld_unit_zero (S := S1x4096) hz2, View.ld_unit_zero (S := S1x128) hz2]
  rw [pay6_apply, pay3_apply, pay4_apply, pay1_eq, pay2_eq]
  exact congr (congr (congr (congr (congrArg cellH (gate_loaded x0 x1 x3 x4 x5 0 _ _ _ u)) (gate_loaded x0 x1 x3 x4 x5 1 _ _ _ u))
    (gate_loaded x0 x1 x3 x4 x5 2 _ _ _ u)) (gate_loaded x0 x1 x3 x4 x5 3 _ _ _ u)) rfl

end Cert.KernelIdeal.Body1

end
-- ==== Proof.Region1.lean ====
/-
  Cell 2's grid, read as one function of its six arrays.

  The grid has 32 points. The input row and the hidden row are whole blocks at every point; point t takes units
  128·t … 128·t + 127 of the old cell state, of each gate's rows of the two weight arrays and of each gate's biases, and
  writes back units 128·t … 128·t + 127 of the output row. So what point t writes back is block t of the function G whose
  entry j is the cell function of unit j's own rows, and the 32 blocks cover the output row: after the grid the output
  array is G of the six arrays as the grid found them.
-/
import proofs.«125027_j23545010717534_2_alg».proof.Proof.Body1

set_option maxRecDepth 16384

noncomputable section

namespace Cert.KernelIdeal.Region1

open Cert.KernelIdeal Cert.KernelIdeal.Gen Cert.Lstm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The column of an index of the output row. -/
def col (i : S1x4096.Idx) : Fin 4096 := ⟨(i 1).val, (i 1).isLt⟩

/-- The unit of an index of a point's output block. -/
def colB (y : S1x128.Idx) : Fin 128 := ⟨(y 1).val, (y 1).isLt⟩

/-- Gate g of unit j from the grid's arrays. -/
def gateA (A0 : S1x4096.Idx → EReal) (A1 : S1x4096.Idx → EReal) (A3 : S4x4096x4096.Idx → EReal) (A4 : S4x4096x4096.Idx → EReal)
    (A5 : S4x4096.Idx → EReal) (g : Fin 4) (j : Fin 4096) : EReal :=
  gateRow (fun k : Fin 4096 => A0 (ix2 0 k)) (fun k : Fin 4096 => A1 (ix2 0 k)) (fun k => A3 (ix3 g j k))
    (fun k => A4 (ix3 g j k)) (A5 (ix2 g j))

/-- The output row as one function of the grid's arrays. -/
def G (A0 : S1x4096.Idx → EReal) (A1 A2 : S1x4096.Idx → EReal) (A3 : S4x4096x4096.Idx → EReal) (A4 : S4x4096x4096.Idx → EReal)
    (A5 : S4x4096.Idx → EReal) : S1x4096.Idx → EReal := fun i =>
  cellH (gateA A0 A1 A3 A4 A5 0 (col i)) (gateA A0 A1 A3 A4 A5 1 (col i)) (gateA A0 A1 A3 A4 A5 2 (col i))
    (gateA A0 A1 A3 A4 A5 3 (col i)) (A2 (ix2 0 (col i)))

theorem G_apply (A0 : S1x4096.Idx → EReal) (A1 A2 : S1x4096.Idx → EReal) (A3 : S4x4096x4096.Idx → EReal) (A4 : S4x4096x4096.Idx → EReal)
    (A5 : S4x4096.Idx → EReal) (j : Fin 4096) :
    G A0 A1 A2 A3 A4 A5 (ix2 0 j) = cellH (gateA A0 A1 A3 A4 A5 0 j) (gateA A0 A1 A3 A4 A5 1 j) (gateA A0 A1 A3 A4 A5 2 j)
      (gateA A0 A1 A3 A4 A5 3 j) (A2 (ix2 0 j)) := rfl

/-- The printed index maps, decided over the grid: the two rows stay at block (0, 0), the other windows move along the
    unit axis with the point. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0
    ∧ win1_5.index t (0 : Fin 2) = 0 ∧ win1_5.index t (1 : Fin 2) = t.val
    ∧ win1_6.index t (0 : Fin 2) = 0 ∧ win1_6.index t (1 : Fin 2) = t.val :=
  (by decide +kernel : ∀ t : Fin grid1.N, _)

/-! ## Each input block read where the array has it -/

theorem blk_x (c : Dev nD) (t : Fin cfg1.N) (k : Fin 4096) :
    (iblk1 V c 0 t : Vec Ideal S1x4096 .f32) (ix2 0 k) = (V c main_v9_0 : S1x4096.Idx → EReal) (ix2 0 k) := by
  obtain ⟨e0, e1, -⟩ := idx_facts t
  unfold iblk1
  rw [View.read_apply]
  show (V c main_v9_0 : S1x4096.Idx → EReal) _ = (V c main_v9_0 : S1x4096.Idx → EReal) _
  refine congrArg (V c main_v9_0 : S1x4096.Idx → EReal) ?_
  funext a
  apply Fin.ext
  match a with
  | ⟨0, _⟩ => show win1_0.index t (0 : Fin 2) * 1 + 1 * (0 : Fin 1).val = (0 : Fin 1).val; rw [e0]; rfl
  | ⟨1, _⟩ => show win1_0.index t (1 : Fin 2) * 4096 + 1 * k.val = k.val; rw [e1]; omega

theorem blk_h (c : Dev nD) (t : Fin cfg1.N) (k : Fin 4096) :
    (iblk1 V c 1 t : Vec Ideal S1x4096 .f32) (ix2 0 k) = (V c main_v11 : S1x4096.Idx → EReal) (ix2 0 k) := by
  obtain ⟨-, -, e0, e1, -⟩ := idx_facts t
  unfold iblk1
  rw [View.read_apply]
  show (V c main_v11 : S1x4096.Idx → EReal) _ = (V c main_v11 : S1x4096.Idx → EReal) _
  refine congrArg (V c main_v11 : S1x4096.Idx → EReal) ?_
  funext a
  apply Fin.ext
  match a with
  | ⟨0, _⟩ => show win1_1.index t (0 : Fin 2) * 1 + 1 * (0 : Fin 1).val = (0 : Fin 1).val; rw [e0]; rfl
  | ⟨1, _⟩ => show win1_1.index t (1 : Fin 2) * 4096 + 1 * k.val = k.val; rw [e1]; omega

theorem blk_c (c : Dev nD) (t : Fin cfg1.N) (u : Fin 128) (j : Fin 4096) (hj : j.val = t.val * 128 + u.val) :
    (iblk1 V c 2 t : Vec Ideal S1x128 .f32) (ix2 0 u) = (V c main_v13 : S1x4096.Idx → EReal) (ix2 0 j) := by
  obtain ⟨-, -, -, -, e0, e1, -⟩ := idx_facts t
  unfold iblk1
  rw [View.read_apply]
  show (V c main_v13 : S1x4096.Idx → EReal) _ = (V c main_v13 : S1x4096.Idx → EReal) _
  refine congrArg (V c main_v13 : S1x4096.Idx → EReal) ?_
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 128 + 1 * u.val = j.val; rw [e1, hj]; omega

theorem blk_w1 (c : Dev nD) (t : Fin cfg1.N) (g : Fin 4) (u : Fin 128) (j : Fin 4096) (hj : j.val = t.val * 128 + u.val)
    (k : Fin 4096) :
    (iblk1 V c 3 t : Vec Ideal S4x128x4096 .f32) (ix3 g u k) = (V c main_v14 : S4x4096x4096.Idx → EReal) (ix3 g j k) := by
  obtain ⟨-, -, -, -, -, -, e0, e1, e2, -⟩ := idx_facts t
  unfold iblk1
  rw [View.read_apply]
  show (V c main_v14 : S4x4096x4096.Idx → EReal) _ = (V c main_v14 : S4x4096x4096.Idx → EReal) _
  refine congrArg (V c main_v14 : S4x4096x4096.Idx → EReal) ?_
  funext a
  apply Fin.ext
  match a with
  | ⟨0, _⟩ => show win1_3.index t (0 : Fin 3) * 4 + 1 * g.val = g.val; rw [e0]; omega
  | ⟨1, _⟩ => show win1_3.index t (1 : Fin 3) * 128 + 1 * u.val = j.val; rw [e1, hj]; omega
  | ⟨2, _⟩ => show win1_3.index t (2 : Fin 3) * 4096 + 1 * k.val = k.val; rw [e2]; omega

theorem blk_w2 (c : Dev nD) (t : Fin cfg1.N) (g : Fin 4) (u : Fin 128) (j : Fin 4096) (hj : j.val = t.val * 128 + u.val)
    (k : Fin 4096) :
    (iblk1 V c 4 t : Vec Ideal S4x128x4096 .f32) (ix3 g u k) = (V c main_v15 : S4x4096x4096.Idx → EReal) (ix3 g j k) := by
  obtain ⟨-, -, -, -, -, -, -, -, -, e0, e1, e2, -⟩ := idx_facts t
  unfold iblk1
  rw [View.read_apply]
  show (V c main_v15 : S4x4096x4096.Idx → EReal) _ = (V c main_v15 : S4x4096x4096.Idx → EReal) _
  refine congrArg (V c main_v15 : S4x4096x4096.Idx → EReal) ?_
  funext a
  apply Fin.ext
  match a with
  | ⟨0, _⟩ => show win1_4.index t (0 : Fin 3) * 4 + 1 * g.val = g.val; rw [e0]; omega
  | ⟨1, _⟩ => show win1_4.index t (1 : Fin 3) * 128 + 1 * u.val = j.val; rw [e1, hj]; omega
  | ⟨2, _⟩ => show win1_4.index t (2 : Fin 3) * 4096 + 1 * k.val = k.val; rw [e2]; omega

theorem blk_b (c : Dev nD) (t : Fin cfg1.N) (g : Fin 4) (u : Fin 128) (j : Fin 4096) (hj : j.val = t.val * 128 + u.val) :
    (iblk1 V c 5 t : Vec Ideal S4x128 .f32) (ix2 g u) = (V c main_v17 : S4x4096.Idx → EReal) (ix2 g j) := by
  obtain ⟨-, -, -, -, -, -, -, -, -, -, -, -, e0, e1, -⟩ := idx_facts t
  unfold iblk1
  rw [View.read_apply]
  show (V c main_v17 : S4x4096.Idx → EReal) _ = (V c main_v17 : S4x4096.Idx → EReal) _
  refine congrArg (V c main_v17 : S4x4096.Idx → EReal) ?_
  funext a
  apply Fin.ext
  match a with
  | ⟨0, _⟩ => show win1_5.index t (0 : Fin 2) * 4 + 1 * g.val = g.val; rw [e0]; omega
  | ⟨1, _⟩ => show win1_5.index t (1 : Fin 2) * 128 + 1 * u.val = j.val; rw [e1, hj]; omega

/-- A gate of unit u of point t is the gate of unit 128·t + u of the arrays. -/
theorem gate_blk (c : Dev nD) (t : Fin cfg1.N) (g : Fin 4) (u : Fin 128) (j : Fin 4096) (hj : j.val = t.val * 128 + u.val) :
    Body1.gateB (iblk1 V c 0 t) (iblk1 V c 1 t) (iblk1 V c 3 t) (iblk1 V c 4 t) (iblk1 V c 5 t) g u
      = gateA (V c main_v9_0) (V c main_v11) (V c main_v14) (V c main_v15) (V c main_v17) g j := by
  unfold Body1.gateB gateA
  rw [funext (blk_x V c t), funext (blk_h V c t), funext (blk_w1 V c t g u j hj), funext (blk_w2 V c t g u j hj),
    blk_b V c t g u j hj]

/-- Entry y of the stored row, for y an index of the block's literal shape. -/
theorem out_at (x0 : Vec Ideal S1x4096 .f32) (x1 : Vec Ideal S1x4096 .f32) (x2 : Vec Ideal S1x128 .f32)
    (x3 : Vec Ideal S4x128x4096 .f32) (x4 : Vec Ideal S4x128x4096 .f32) (x5 : Vec Ideal S4x128 .f32) (y : S1x128.Idx) :
    out1_6 (F := Ideal) x0 x1 x2 x3 x4 x5 y
      = cellH (Body1.gateB x0 x1 x3 x4 x5 0 (colB y)) (Body1.gateB x0 x1 x3 x4 x5 1 (colB y))
          (Body1.gateB x0 x1 x3 x4 x5 2 (colB y)) (Body1.gateB x0 x1 x3 x4 x5 3 (colB y)) (x2 (ix2 0 (colB y))) := by
  obtain ⟨p, u, rfl⟩ : ∃ (p : Fin 1) (u : Fin 128), y = ix2 p u := ⟨y 0, y 1, eq_ix2 y⟩
  obtain rfl : p = 0 := Subsingleton.elim _ _
  exact Body1.out_apply x0 x1 x2 x3 x4 x5 u

/-! ## What a point writes back, the cover, the array after the grid -/

/-- What point t writes back is block t of G of the arrays as the grid finds them. -/
theorem flushed_eq (c : Dev nD) (t : Fin cfg1.N) :
    (dat1 V c).flushed 6 t = ((cfg1.win 6).blk t).view.read (Elt Ideal)
      (G (V c main_v9_0) (V c main_v11) (V c main_v13) (V c main_v14) (V c main_v15) (V c main_v17)) := by
  show (cfg1.win 6).cut (grid1.coords t) ((dat1 V c).after 6 t) = _
  rw [after1_6]
  funext y
  obtain ⟨-, -, -, -, -, -, -, -, -, -, -, -, -, -, e60, e61⟩ := idx_facts t
  have hN : cfg1.N = 32 := N_1
  have ht : t.val < 32 := by have := t.isLt; omega
  have hy1 : (y 1).val < 128 := (y 1).isLt
  have hj : t.val * 128 + (y 1).val < 4096 := by omega
  show out1_6 (iblk1 V c 0 t) (iblk1 V c 1 t) (iblk1 V c 2 t) (iblk1 V c 3 t) (iblk1 V c 4 t) (iblk1 V c 5 t) y
    = G (V c main_v9_0) (V c main_v11) (V c main_v13) (V c main_v14) (V c main_v15) (V c main_v17) (((cfg1.win 6).blk t).view.emb y)
  refine (out_at (iblk1 V c 0 t) (iblk1 V c 1 t) (iblk1 V c 2 t) (iblk1 V c 3 t) (iblk1 V c 4 t) (iblk1 V c 5 t) y).trans ?_
  have hcol : col (((cfg1.win 6).blk t).view.emb y) = ⟨t.val * 128 + (y 1).val, hj⟩ :=
    Fin.ext (by show win1_6.index t (1 : Fin 2) * 128 + 1 * (y 1).val = t.val * 128 + (y 1).val; rw [e61]; omega)
  unfold G
  rw [hcol]
  rw [gate_blk V c t 0 (colB y) ⟨t.val * 128 + (y 1).val, hj⟩ rfl, gate_blk V c t 1 (colB y) ⟨t.val * 128 + (y 1).val, hj⟩ rfl,
    gate_blk V c t 2 (colB y) ⟨t.val * 128 + (y 1).val, hj⟩ rfl, gate_blk V c t 3 (colB y) ⟨t.val * 128 + (y 1).val, hj⟩ rfl,
    blk_c V c t (colB y) ⟨t.val * 128 + (y 1).val, hj⟩ rfl]

/-- An index of the output row is in point t's block iff each coordinate is in the block's range on its axis. -/
theorem mem_blk (t : Fin cfg1.N) (i : S1x4096.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v18_0).slice (win1_6.rect t)).set ↔ _
  rw [View.set_slice_whole, Rect.mem_set_unit]
  exact Iff.rfl

/-- Every index of the output row lies in the block of the point its unit divided by 128 names. -/
theorem cover (i : S1x4096.Idx) : ∃ t : Fin cfg1.N, (cfg1.win 6).flush t = true ∧ i ∈ ((cfg1.win 6).blk t).view.set := by
  have h0 : (i 0).val < 1 := (i 0).isLt
  have h1 : (i 1).val < 4096 := (i 1).isLt
  have hN : cfg1.N = 32 := N_1
  have htl : (i 1).val / 128 < cfg1.N := by rw [hN]; omega
  obtain ⟨-, -, -, -, -, -, -, -, -, -, -, -, -, -, e60, e61⟩ := idx_facts ⟨(i 1).val / 128, htl⟩
  refine ⟨⟨(i 1).val / 128, htl⟩, flush1_6 _, ?_⟩
  rw [mem_blk]
  intro a
  match a with
  | ⟨0, _⟩ =>
    show win1_6.index ⟨(i 1).val / 128, htl⟩ (0 : Fin 2) * 1 ≤ (i 0).val ∧ (i 0).val < win1_6.index ⟨(i 1).val / 128, htl⟩ (0 : Fin 2) * 1 + 1
    rw [e60]; omega
  | ⟨1, _⟩ =>
    show win1_6.index ⟨(i 1).val / 128, htl⟩ (1 : Fin 2) * 128 ≤ (i 1).val ∧ (i 1).val < win1_6.index ⟨(i 1).val / 128, htl⟩ (1 : Fin 2) * 128 + 128
    rw [e61]
    show (i 1).val / 128 * 128 ≤ (i 1).val ∧ (i 1).val < (i 1).val / 128 * 128 + 128
    omega

/-- The output array after the grid: G of the six arrays as the grid found them. -/
theorem final (c : Dev nD) : (dat1 V c).arrAt 6 cfg1.N
    = G (V c main_v9_0) (V c main_v11) (V c main_v13) (V c main_v14) (V c main_v15) (V c main_v17) :=
  (dat1 V c).arrAt_eq_of_cover 6 (G (V c main_v9_0) (V c main_v11) (V c main_v13) (V c main_v14) (V c main_v15) (V c main_v17))
    (fun t _ => flushed_eq V c t) cover

end Cert.KernelIdeal.Region1

end
-- ==== Proof.KernelHost.lean ====
/-
  The kernel program's host operations, read at an index, and the two cells' output rows as functions of the arguments.

  Before the first grid the host reshapes the input vector to a row, takes layer 0's rows of the hidden and cell states,
  reshapes each weight array [16384, K] to [4, 4096, K] (row 4096·g + j becomes (g, j)) and adds the two bias vectors
  before reshaping the sum to [4, 4096]. Before the second grid it does the same with layer 1's rows and the second
  cell's parameters; the second grid's input row is the first grid's output row, which no host operation in between
  writes. Read through these, each grid's output row at unit j is the cell function of the flat parameter rows
  4096·g + j.
-/
import proofs.«125027_j23545010717534_2_alg».proof.Proof.Region0
import proofs.«125027_j23545010717534_2_alg».proof.Proof.Region1
import Idealize.ShloMosaic.Lib.StableHlo.Run

set_option maxRecDepth 16384

noncomputable section

namespace Cert.KernelIdeal.Host

open Cert.KernelIdeal Cert.KernelIdeal.Gen Cert.Lstm
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## No grid and no host operation writes an argument -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)
theorem W4_arg11 (c : Dev nD) : W4 m ρ c (Proc.devRef .tc main_arg11) = m ((c : Thread nD τ).loc main_arg11) :=
  (W4_of_ne m ρ c main_arg11 (by decide)).trans (by
    show StableHlo.after hostOps1 (W2 m ρ c) (Proc.devRef .tc main_arg11) = _
    after_results
    refine (W2_of_ne m ρ c main_arg11 (by decide)).trans ?_
    show StableHlo.after hostOps0 (W0 m ρ c) (Proc.devRef .tc main_arg11) = _
    after_results)
theorem W4_arg12 (c : Dev nD) : W4 m ρ c (Proc.devRef .tc main_arg12) = m ((c : Thread nD τ).loc main_arg12) :=
  (W4_of_ne m ρ c main_arg12 (by decide)).trans (by
    show StableHlo.after hostOps1 (W2 m ρ c) (Proc.devRef .tc main_arg12) = _
    after_results
    refine (W2_of_ne m ρ c main_arg12 (by decide)).trans ?_
    show StableHlo.after hostOps0 (W0 m ρ c) (Proc.devRef .tc main_arg12) = _
    after_results)
theorem W4_arg13 (c : Dev nD) : W4 m ρ c (Proc.devRef .tc main_arg13) = m ((c : Thread nD τ).loc main_arg13) :=
  (W4_of_ne m ρ c main_arg13 (by decide)).trans (by
    show StableHlo.after hostOps1 (W2 m ρ c) (Proc.devRef .tc main_arg13) = _
    after_results
    refine (W2_of_ne m ρ c main_arg13 (by decide)).trans ?_
    show StableHlo.after hostOps0 (W0 m ρ c) (Proc.devRef .tc main_arg13) = _
    after_results)
theorem W4_arg14 (c : Dev nD) : W4 m ρ c (Proc.devRef .tc main_arg14) = m ((c : Thread nD τ).loc main_arg14) :=
  (W4_of_ne m ρ c main_arg14 (by decide)).trans (by
    show StableHlo.after hostOps1 (W2 m ρ c) (Proc.devRef .tc main_arg14) = _
    after_results
    refine (W2_of_ne m ρ c main_arg14 (by decide)).trans ?_
    show StableHlo.after hostOps0 (W0 m ρ c) (Proc.devRef .tc main_arg14) = _
    after_results)

/-! ## Cell 1's arrays as the grid finds them, read at an index -/

theorem V1_h (c : Dev nD) (k : Fin 4096) :
    (V1 m ρ c main_v2 : S1x4096.Idx → EReal) (ix2 0 k) = (m ((c : Thread nD τ).loc main_arg1) : S2x1x4096.Idx → EReal) (ix3 0 0 k) := by
  have e : (V1 m ρ c main_v2 : S1x4096.Idx → EReal)
      = shapeCast S1x4096 (extractStridedSlice S1x1x4096 ![0, 0, 0] (m ((c : Thread nD τ).loc main_arg1)) slices_S2x1x4096_S1x1x4096_0_0_0) shapeCasts_S1x1x4096_S1x4096 := by
    show StableHlo.after hostOps0 (W0 m ρ c) (Proc.devRef .tc main_v2) = _
    after_results; rfl
  rw [e]
  refine (shapeCast_apply _ shapeCasts_S1x1x4096_S1x4096 (ix2 0 k) (ix3 0 0 k) ?_).trans ?_
  · rw [Shape.rowMajor_val_three, Shape.rowMajor_val_two]
    show (0 * 1 + 0) * 4096 + k.val = 0 * 4096 + k.val
    omega
  · exact extractStridedSlice_apply ![0, 0, 0] _ slices_S2x1x4096_S1x1x4096_0_0_0 (ix3 0 0 k) (ix3 0 0 k) fun a => by
      match a with
      | ⟨0, _⟩ => rfl
      | ⟨1, _⟩ => rfl
      | ⟨2, _⟩ => exact (Nat.zero_add _).symm

theorem V1_c (c : Dev nD) (j : Fin 4096) :
    (V1 m ρ c main_v4 : S1x4096.Idx → EReal) (ix2 0 j) = (m ((c : Thread nD τ).loc main_arg2) : S2x1x4096.Idx → EReal) (ix3 0 0 j) := by
  have e : (V1 m ρ c main_v4 : S1x4096.Idx → EReal)
      = shapeCast S1x4096 (extractStridedSlice S1x1x4096 ![0, 0, 0] (m ((c : Thread nD τ).loc main_arg2)) slices_S2x1x4096_S1x1x4096_0_0_0) shapeCasts_S1x1x4096_S1x4096 := by
    show StableHlo.after hostOps0 (W0 m ρ c) (Proc.devRef .tc main_v4) = _
    after_results; rfl
  rw [e]
  refine (shapeCast_apply _ shapeCasts_S1x1x4096_S1x4096 (ix2 0 j) (ix3 0 0 j) ?_).trans ?_
  · rw [Shape.rowMajor_val_three, Shape.rowMajor_val_two]
    show (0 * 1 + 0) * 4096 + j.val = 0 * 4096 + j.val
    omega
  · exact extractStridedSlice_apply ![0, 0, 0] _ slices_S2x1x4096_S1x1x4096_0_0_0 (ix3 0 0 j) (ix3 0 0 j) fun a => by
      match a with
      | ⟨0, _⟩ => rfl
      | ⟨1, _⟩ => rfl
      | ⟨2, _⟩ => exact (Nat.zero_add _).symm

theorem V1_w1 (c : Dev nD) (g : Fin 4) (j : Fin 4096) (k : Fin 512) :
    (V1 m ρ c main_v5 : S4x4096x512.Idx → EReal) (ix3 g j k) = (m ((c : Thread nD τ).loc main_arg3) : S16384x512.Idx → EReal) (ix2 (row g j) k) := by
  have e : (V1 m ρ c main_v5 : S4x4096x512.Idx → EReal) = shapeCast S4x4096x512 (m ((c : Thread nD τ).loc main_arg3)) shapeCasts_S16384x512_S4x4096x512 := by
    show StableHlo.after hostOps0 (W0 m ρ c) (Proc.devRef .tc main_v5) = _
    after_results; rfl
  rw [e]
  refine shapeCast_apply _ shapeCasts_S16384x512_S4x4096x512 (ix3 g j k) (ix2 (row g j) k) ?_
  rw [Shape.rowMajor_val_two, Shape.rowMajor_val_three]
  rfl

theorem V1_w2 (c : Dev nD) (g : Fin 4) (j : Fin 4096) (k : Fin 4096) :
    (V1 m ρ c main_v6 : S4x4096x4096.Idx → EReal) (ix3 g j k) = (m ((c : Thread nD τ).loc main_arg4) : S16384x4096.Idx → EReal) (ix2 (row g j) k) := by
  have e : (V1 m ρ c main_v6 : S4x4096x4096.Idx → EReal) = shapeCast S4x4096x4096 (m ((c : Thread nD τ).loc main_arg4)) shapeCasts_S16384x4096_S4x4096x4096 := by
    show StableHlo.after hostOps0 (W0 m ρ c) (Proc.devRef .tc main_v6) = _
    after_results; rfl
  rw [e]
  refine shapeCast_apply _ shapeCasts_S16384x4096_S4x4096x4096 (ix3 g j k) (ix2 (row g j) k) ?_
  rw [Shape.rowMajor_val_two, Shape.rowMajor_val_three]
  rfl

theorem V1_b (c : Dev nD) (g : Fin 4) (j : Fin 4096) :
    (V1 m ρ c main_v8 : S4x4096.Idx → EReal) (ix2 g j)
      = @HAdd.hAdd EReal EReal EReal _ ((m ((c : Thread nD τ).loc main_arg5) : S16384.Idx → EReal) (ix1 (row g j))) ((m ((c : Thread nD τ).loc main_arg6) : S16384.Idx → EReal) (ix1 (row g j))) := by
  have e : (V1 m ρ c main_v8 : S4x4096.Idx → EReal)
      = shapeCast (s := S16384) (α := EReal) S4x4096 (addf (F := Ideal) (s := S16384) (φ := .f32) (m ((c : Thread nD τ).loc main_arg5)) (m ((c : Thread nD τ).loc main_arg6))) shapeCasts_S16384_S4x4096 := by
    show StableHlo.after hostOps0 (W0 m ρ c) (Proc.devRef .tc main_v8) = _
    after_results; rfl
  rw [e]
  refine (shapeCast_apply _ shapeCasts_S16384_S4x4096 (ix2 g j) (ix1 (row g j)) ?_).trans rfl
  rw [Shape.rowMajor_val_one, Shape.rowMajor_val_two]
  rfl

theorem V1_x (c : Dev nD) (k : Fin 512) :
    (V1 m ρ c main_v0 : S1x512.Idx → EReal) (ix2 0 k) = (m ((c : Thread nD τ).loc main_arg0) : S512.Idx → EReal) (ix1 k) := by
  have e : (V1 m ρ c main_v0 : S1x512.Idx → EReal) = shapeCast S1x512 (m ((c : Thread nD τ).loc main_arg0)) shapeCasts_S512_S1x512 := by
    show StableHlo.after hostOps0 (W0 m ρ c) (Proc.devRef .tc main_v0) = _
    after_results; rfl
  rw [e]
  refine shapeCast_apply _ shapeCasts_S512_S1x512 (ix2 0 k) (ix1 k) ?_
  rw [Shape.rowMajor_val_one, Shape.rowMajor_val_two]
  show k.val = 0 * 512 + k.val
  omega

/-- The first cell's output row, as the first grid leaves it. -/
abbrev h1 (c : Dev nD) : S1x4096.Idx → EReal := W2 m ρ c (Proc.devRef .tc main_v9_0)

/-- Unit j of the first cell's output row. -/
theorem h1_apply (c : Dev nD) (j : Fin 4096) :
    h1 m ρ c (ix2 0 j) = lstmH (fun k : Fin 512 => (m ((c : Thread nD τ).loc main_arg0) : S512.Idx → EReal) (ix1 k)) (fun k : Fin 4096 => (m ((c : Thread nD τ).loc main_arg1) : S2x1x4096.Idx → EReal) (ix3 0 0 k))
      (fun j : Fin 4096 => (m ((c : Thread nD τ).loc main_arg2) : S2x1x4096.Idx → EReal) (ix3 0 0 j)) (fun r k => (m ((c : Thread nD τ).loc main_arg3) : S16384x512.Idx → EReal) (ix2 r k))
      (fun r k => (m ((c : Thread nD τ).loc main_arg4) : S16384x4096.Idx → EReal) (ix2 r k)) (fun r => (m ((c : Thread nD τ).loc main_arg5) : S16384.Idx → EReal) (ix1 r)) (fun r => (m ((c : Thread nD τ).loc main_arg6) : S16384.Idx → EReal) (ix1 r)) j := by
  have e : h1 m ρ c = (dat0 (V1 m ρ) c).arrAt 6 cfg0.N := W2_arr m ρ c 6
  rw [e, Region0.final (V1 m ρ) c, Region0.G_apply]
  unfold lstmH gateF Region0.gateA
  simp only [V1_x m ρ c, V1_h m ρ c, V1_c m ρ c, V1_w1 m ρ c, V1_w2 m ρ c, V1_b m ρ c]

/-! ## Cell 2's arrays as the grid finds them, read at an index -/

theorem V3_h (c : Dev nD) (k : Fin 4096) :
    (V3 m ρ c main_v11 : S1x4096.Idx → EReal) (ix2 0 k) = (m ((c : Thread nD τ).loc main_arg1) : S2x1x4096.Idx → EReal) (ix3 1 0 k) := by
  have e : (V3 m ρ c main_v11 : S1x4096.Idx → EReal)
      = shapeCast S1x4096 (extractStridedSlice S1x1x4096 ![1, 0, 0] (W2 m ρ c (Proc.devRef .tc main_arg1)) slices_S2x1x4096_S1x1x4096_1_0_0) shapeCasts_S1x1x4096_S1x4096 := by
    show StableHlo.after hostOps1 (W2 m ρ c) (Proc.devRef .tc main_v11) = _
    after_results; rfl
  rw [W2_arg1 m ρ c] at e
  rw [e]
  refine (shapeCast_apply _ shapeCasts_S1x1x4096_S1x4096 (ix2 0 k) (ix3 0 0 k) ?_).trans ?_
  · rw [Shape.rowMajor_val_three, Shape.rowMajor_val_two]
    show (0 * 1 + 0) * 4096 + k.val = 0 * 4096 + k.val
    omega
  · exact extractStridedSlice_apply ![1, 0, 0] _ slices_S2x1x4096_S1x1x4096_1_0_0 (ix3 0 0 k) (ix3 1 0 k) fun a => by
      match a with
      | ⟨0, _⟩ => rfl
      | ⟨1, _⟩ => rfl
      | ⟨2, _⟩ => exact (Nat.zero_add _).symm

theorem V3_c (c : Dev nD) (j : Fin 4096) :
    (V3 m ρ c main_v13 : S1x4096.Idx → EReal) (ix2 0 j) = (m ((c : Thread nD τ).loc main_arg2) : S2x1x4096.Idx → EReal) (ix3 1 0 j) := by
  have e : (V3 m ρ c main_v13 : S1x4096.Idx → EReal)
      = shapeCast S1x4096 (extractStridedSlice S1x1x4096 ![1, 0, 0] (W2 m ρ c (Proc.devRef .tc main_arg2)) slices_S2x1x4096_S1x1x4096_1_0_0) shapeCasts_S1x1x4096_S1x4096 := by
    show StableHlo.after hostOps1 (W2 m ρ c) (Proc.devRef .tc main_v13) = _
    after_results; rfl
  rw [W2_arg2 m ρ c] at e
  rw [e]
  refine (shapeCast_apply _ shapeCasts_S1x1x4096_S1x4096 (ix2 0 j) (ix3 0 0 j) ?_).trans ?_
  · rw [Shape.rowMajor_val_three, Shape.rowMajor_val_two]
    show (0 * 1 + 0) * 4096 + j.val = 0 * 4096 + j.val
    omega
  · exact extractStridedSlice_apply ![1, 0, 0] _ slices_S2x1x4096_S1x1x4096_1_0_0 (ix3 0 0 j) (ix3 1 0 j) fun a => by
      match a with
      | ⟨0, _⟩ => rfl
      | ⟨1, _⟩ => rfl
      | ⟨2, _⟩ => exact (Nat.zero_add _).symm

theorem V3_w1 (c : Dev nD) (g : Fin 4) (j : Fin 4096) (k : Fin 4096) :
    (V3 m ρ c main_v14 : S4x4096x4096.Idx → EReal) (ix3 g j k) = (m ((c : Thread nD τ).loc main_arg7) : S16384x4096.Idx → EReal) (ix2 (row g j) k) := by
  have e : (V3 m ρ c main_v14 : S4x4096x4096.Idx → EReal) = shapeCast S4x4096x4096 (W2 m ρ c (Proc.devRef .tc main_arg7)) shapeCasts_S16384x4096_S4x4096x4096 := by
    show StableHlo.after hostOps1 (W2 m ρ c) (Proc.devRef .tc main_v14) = _
    after_results; rfl
  rw [W2_arg7 m ρ c] at e
  rw [e]
  refine shapeCast_apply _ shapeCasts_S16384x4096_S4x4096x4096 (ix3 g j k) (ix2 (row g j) k) ?_
  rw [Shape.rowMajor_val_two, Shape.rowMajor_val_three]
  rfl

theorem V3_w2 (c : Dev nD) (g : Fin 4) (j : Fin 4096) (k : Fin 4096) :
    (V3 m ρ c main_v15 : S4x4096x4096.Idx → EReal) (ix3 g j k) = (m ((c : Thread nD τ).loc main_arg8) : S16384x4096.Idx → EReal) (ix2 (row g j) k) := by
  have e : (V3 m ρ c main_v15 : S4x4096x4096.Idx → EReal) = shapeCast S4x4096x4096 (W2 m ρ c (Proc.devRef .tc main_arg8)) shapeCasts_S16384x4096_S4x4096x4096 := by
    show StableHlo.after hostOps1 (W2 m ρ c) (Proc.devRef .tc main_v15) = _
    after_results; rfl
  rw [W2_arg8 m ρ c] at e
  rw [e]
  refine shapeCast_apply _ shapeCasts_S16384x4096_S4x4096x4096 (ix3 g j k) (ix2 (row g j) k) ?_
  rw [Shape.rowMajor_val_two, Shape.rowMajor_val_three]
  rfl

theorem V3_b (c : Dev nD) (g : Fin 4) (j : Fin 4096) :
    (V3 m ρ c main_v17 : S4x4096.Idx → EReal) (ix2 g j)
      = @HAdd.hAdd EReal EReal EReal _ ((m ((c : Thread nD τ).loc main_arg9) : S16384.Idx → EReal) (ix1 (row g j))) ((m ((c : Thread nD τ).loc main_arg10) : S16384.Idx → EReal) (ix1 (row g j))) := by
  have e : (V3 m ρ c main_v17 : S4x4096.Idx → EReal)
      = shapeCast (s := S16384) (α := EReal) S4x4096 (addf (F := Ideal) (s := S16384) (φ := .f32) (W2 m ρ c (Proc.devRef .tc main_arg9)) (W2 m ρ c (Proc.devRef .tc main_arg10))) shapeCasts_S16384_S4x4096 := by
    show StableHlo.after hostOps1 (W2 m ρ c) (Proc.devRef .tc main_v17) = _
    after_results; rfl
  rw [W2_arg9 m ρ c, W2_arg10 m ρ c] at e
  rw [e]
  refine (shapeCast_apply _ shapeCasts_S16384_S4x4096 (ix2 g j) (ix1 (row g j)) ?_).trans rfl
  rw [Shape.rowMajor_val_one, Shape.rowMajor_val_two]
  rfl

theorem V3_x (c : Dev nD) : (V3 m ρ c main_v9_0 : S1x4096.Idx → EReal) = h1 m ρ c := by
  show StableHlo.after hostOps1 (W2 m ρ c) (Proc.devRef .tc main_v9_0) = _
  after_results

/-- The second cell's output row, as the second grid leaves it. -/
abbrev h2 (c : Dev nD) : S1x4096.Idx → EReal := W4 m ρ c (Proc.devRef .tc main_v18_0)

/-- Unit j of the second cell's output row. -/
theorem h2_apply (c : Dev nD) (j : Fin 4096) :
    h2 m ρ c (ix2 0 j) = lstmH (fun k : Fin 4096 => h1 m ρ c (ix2 0 k)) (fun k : Fin 4096 => (m ((c : Thread nD τ).loc main_arg1) : S2x1x4096.Idx → EReal) (ix3 1 0 k))
      (fun j : Fin 4096 => (m ((c : Thread nD τ).loc main_arg2) : S2x1x4096.Idx → EReal) (ix3 1 0 j)) (fun r k => (m ((c : Thread nD τ).loc main_arg7) : S16384x4096.Idx → EReal) (ix2 r k))
      (fun r k => (m ((c : Thread nD τ).loc main_arg8) : S16384x4096.Idx → EReal) (ix2 r k)) (fun r => (m ((c : Thread nD τ).loc main_arg9) : S16384.Idx → EReal) (ix1 r)) (fun r => (m ((c : Thread nD τ).loc main_arg10) : S16384.Idx → EReal) (ix1 r)) j := by
  have e : h2 m ρ c = (dat1 (V3 m ρ) c).arrAt 6 cfg1.N := W4_arr m ρ c 6
  rw [e, Region1.final (V3 m ρ) c, Region1.G_apply]
  unfold lstmH gateF Region1.gateA
  simp only [V3_x m ρ c, V3_h m ρ c, V3_c m ρ c, V3_w1 m ρ c, V3_w2 m ρ c, V3_b m ρ c]

/-! ## The head -/

/-- The linear head on a row: the row against the weight row, plus the bias. -/
def headL (h w : FVec Ideal S1x4096 .f32) (b : FVec Ideal S1 .f32) : FVec Ideal S1x1 .f32 :=
  addf (F := Ideal) (Host.dotGeneral (F := Ideal) dot_S1x4096_S4096x1_S1x1_1_0_0_1_n_n none h (transpose S4096x1 [1, 0] w transposes_S1x4096_S4096x1_1_0))
    (broadcastInDim S1x1 ![1] bcast_S1_S1x1_1 b)

/-- The gated head on a row: one over one plus the exponential of minus the linear head. -/
def headD (h w : FVec Ideal S1x4096 .f32) (b : FVec Ideal S1 .f32) : FVec Ideal S1x1 .f32 :=
  Host.divf (F := Ideal) (broadcastInDim S1x1 ![] bcast_S_S1x1 (constant (F := Ideal) S_ .f32 0x3F800000#32))
    (addf (F := Ideal) (broadcastInDim S1x1 ![] bcast_S_S1x1 (constant (F := Ideal) S_ .f32 0x3F800000#32))
      (Host.exp (F := Ideal) (Host.negf (F := Ideal) (headL h w b))))

/-- The second result: the linear head of the second cell's output row. -/
theorem out_l (c : Dev nD) : W5 m ρ c (Proc.devRef .tc main_v22)
    = headL (h2 m ρ c) (m ((c : Thread nD τ).loc main_arg11) : S1x4096.Idx → EReal) (m ((c : Thread nD τ).loc main_arg12) : S1.Idx → EReal) := by
  show StableHlo.after hostOps2 (W4 m ρ c) (Proc.devRef .tc main_v22) = _
  after_results
  rw [W4_arg11 m ρ c, W4_arg12 m ρ c]
  rfl

/-- The first result: the gated head of the second cell's output row. -/
theorem out_d (c : Dev nD) : W5 m ρ c (Proc.devRef .tc main_v32)
    = headD (h2 m ρ c) (m ((c : Thread nD τ).loc main_arg13) : S1x4096.Idx → EReal) (m ((c : Thread nD τ).loc main_arg14) : S1.Idx → EReal) := by
  show StableHlo.after hostOps2 (W4 m ρ c) (Proc.devRef .tc main_v32) = _
  after_results
  rw [W4_arg13 m ρ c, W4_arg14 m ρ c]
  rfl

end Cert.KernelIdeal.Host

end
-- ==== Proof.RefRead.lean ====
/-
  The reference program's two cells, read at an index.

  The reference multiplies the input row by the transposed input weights, adds the first bias, adds the hidden row times
  the transposed hidden weights, adds the second bias, cuts the 16384 columns into the four gates' 4096, and forms
  σ(o)·tanh(σ(f)·c + σ(i)·tanh(g)) with σ spelt as one over one plus the exponential of the negation. Column
  4096·g + j of its pre-activations is gate g of unit j, so each cell's output row at unit j is the cell function of the
  flat parameter rows 4096·g + j — with the biases regrouped, which addition of extended reals allows.
-/
import proofs.«125027_j23545010717534_2_alg».proof.Proof.Gen.ReferenceIdeal.Read
import proofs.«125027_j23545010717534_2_alg».proof.Proof.Cell
import Idealize.ShloMosaic.Lib.ValueIdx

set_option maxRecDepth 16384

noncomputable section

namespace Cert.ReferenceIdeal.Hand

open Cert.ReferenceIdeal Cert.ReferenceIdeal.Read Cert.Lstm
open Idealize.ShloMosaic Idealize.ShloMosaic.ValueIdx

/-! ## Cell 1 -/

/-- Column r of the first cell's four gates' pre-activations: the reference adds each bias right after its product. -/
theorem gates1 (x0 : (⟨S512, .f32⟩ : BufTy).Contents (Elt Ideal)) (x1 : (⟨S2x1x4096, .f32⟩ : BufTy).Contents (Elt Ideal)) (x3 : (⟨S16384x512, .f32⟩ : BufTy).Contents (Elt Ideal)) (x4 : (⟨S16384x4096, .f32⟩ : BufTy).Contents (Elt Ideal)) (x5 : (⟨S16384, .f32⟩ : BufTy).Contents (Elt Ideal)) (x6 : (⟨S16384, .f32⟩ : BufTy).Contents (Elt Ideal)) (r : Fin 16384) :
    val_main_v13 (F := Ideal) x0 x1 x3 x4 x5 x6 (ix2 0 r)
      = gateRow (fun k : Fin 512 => x0 (ix1 k)) (fun k : Fin 4096 => x1 (ix3 0 0 k)) (fun k => x3 (ix2 r k))
          (fun k => x4 (ix2 r k)) (x5 (ix1 r) + x6 (ix1 r)) := by
  rw [← gateRow_split]
  show ((val_main_v6 (F := Ideal) x0 x3 (ix2 0 r) + val_main_v7 (F := Ideal) x5 (ix2 0 r)) + val_main_v10 (F := Ideal) x1 x4 (ix2 0 r)) + val_main_v12 (F := Ideal) x6 (ix2 0 r) = _
  rw [val_main_v6_apply, val_main_v10_apply, val_main_v7_apply, val_main_v12_apply]
  refine congrArg₂ (· + ·) (congrArg₂ (· + ·) (congrArg₂ (· + ·) (Finset.sum_congr rfl fun k _ => ?_) ?_)
    (Finset.sum_congr rfl fun k _ => ?_)) ?_
  · have hk := k.isLt
    rw [val_main_v0_apply, val_main_v5_apply]
    exact congrArg₂ (· * ·)
      (congrArg x0 (funext fun a => Fin.ext (by
        match a with
        | ⟨0, _⟩ => show 0 * 512 + k.val = k.val; omega)))
      (congrArg x3 (funext fun a => Fin.ext (by
        match a with
        | ⟨0, _⟩ => rfl
        | ⟨1, _⟩ => rfl)))
  · exact congrArg x5 (funext fun a => Fin.ext (by
      match a with
      | ⟨0, _⟩ => rfl))
  · have hk := k.isLt
    rw [val_main_v2_apply, val_main_v1_apply, val_main_v9_apply]
    exact congrArg₂ (· * ·)
      (congrArg x1 (funext fun a => Fin.ext (by
        match a with
        | ⟨0, _⟩ => rfl
        | ⟨1, _⟩ => rfl
        | ⟨2, _⟩ => show (0 * 4096 + k.val) % 4096 = k.val; omega)))
      (congrArg x4 (funext fun a => Fin.ext (by
        match a with
        | ⟨0, _⟩ => rfl
        | ⟨1, _⟩ => rfl)))
  · exact congrArg x6 (funext fun a => Fin.ext (by
      match a with
      | ⟨0, _⟩ => rfl))

/-- Unit j of the first cell's output row. -/
theorem h1_ref (x0 : (⟨S512, .f32⟩ : BufTy).Contents (Elt Ideal)) (x1 : (⟨S2x1x4096, .f32⟩ : BufTy).Contents (Elt Ideal)) (x2 : (⟨S2x1x4096, .f32⟩ : BufTy).Contents (Elt Ideal)) (x3 : (⟨S16384x512, .f32⟩ : BufTy).Contents (Elt Ideal)) (x4 : (⟨S16384x4096, .f32⟩ : BufTy).Contents (Elt Ideal)) (x5 : (⟨S16384, .f32⟩ : BufTy).Contents (Elt Ideal)) (x6 : (⟨S16384, .f32⟩ : BufTy).Contents (Elt Ideal)) (j : Fin 4096) :
    val_main_v41 (F := Ideal) x0 x1 x2 x3 x4 x5 x6 (ix2 0 j)
      = lstmH (fun k : Fin 512 => x0 (ix1 k)) (fun k : Fin 4096 => x1 (ix3 0 0 k)) (fun j : Fin 4096 => x2 (ix3 0 0 j))
          (fun r k => x3 (ix2 r k)) (fun r k => x4 (ix2 r k)) (fun r => x5 (ix1 r)) (fun r => x6 (ix1 r)) j := by
  have hj := j.isLt
  have c20 : val_main_v20 (F := Ideal) (ix2 0 j) = Ideal.ofBits .f32 0x3F800000#32 := by
    rw [val_main_v20_apply]; rfl
  have c22 : val_main_v22 (F := Ideal) (ix2 0 j) = Ideal.ofBits .f32 0x3F800000#32 := by
    rw [val_main_v22_apply]; rfl
  have c27 : val_main_v27 (F := Ideal) (ix2 0 j) = Ideal.ofBits .f32 0x3F800000#32 := by
    rw [val_main_v27_apply]; rfl
  have c29 : val_main_v29 (F := Ideal) (ix2 0 j) = Ideal.ofBits .f32 0x3F800000#32 := by
    rw [val_main_v29_apply]; rfl
  have c36 : val_main_v36 (F := Ideal) (ix2 0 j) = Ideal.ofBits .f32 0x3F800000#32 := by
    rw [val_main_v36_apply]; rfl
  have c38 : val_main_v38 (F := Ideal) (ix2 0 j) = Ideal.ofBits .f32 0x3F800000#32 := by
    rw [val_main_v38_apply]; rfl
  have g0 : val_main_v14 (F := Ideal) x0 x1 x3 x4 x5 x6 (ix2 0 j)
      = gateRow (fun k : Fin 512 => x0 (ix1 k)) (fun k : Fin 4096 => x1 (ix3 0 0 k)) (fun k => x3 (ix2 (row 0 j) k))
          (fun k => x4 (ix2 (row 0 j) k)) (x5 (ix1 (row 0 j)) + x6 (ix1 (row 0 j))) := by
    rw [val_main_v14_apply]
    refine (congrArg (val_main_v13 (F := Ideal) x0 x1 x3 x4 x5 x6) ?_).trans (gates1 x0 x1 x3 x4 x5 x6 (row 0 j))
    funext a
    apply Fin.ext
    match a with
    | ⟨0, _⟩ => rfl
    | ⟨1, _⟩ => show j.val = 0 * 4096 + j.val; omega
  have g1 : val_main_v15 (F := Ideal) x0 x1 x3 x4 x5 x6 (ix2 0 j)
      = gateRow (fun k : Fin 512 => x0 (ix1 k)) (fun k : Fin 4096 => x1 (ix3 0 0 k)) (fun k => x3 (ix2 (row 1 j) k))
          (fun k => x4 (ix2 (row 1 j) k)) (x5 (ix1 (row 1 j)) + x6 (ix1 (row 1 j))) := by
    rw [val_main_v15_apply]
    refine (congrArg (val_main_v13 (F := Ideal) x0 x1 x3 x4 x5 x6) ?_).trans (gates1 x0 x1 x3 x4 x5 x6 (row 1 j))
    funext a
    apply Fin.ext
    match a with
    | ⟨0, _⟩ => rfl
    | ⟨1, _⟩ => show 4096 + j.val = 1 * 4096 + j.val; omega
  have g2 : val_main_v16 (F := Ideal) x0 x1 x3 x4 x5 x6 (ix2 0 j)
      = gateRow (fun k : Fin 512 => x0 (ix1 k)) (fun k : Fin 4096 => x1 (ix3 0 0 k)) (fun k => x3 (ix2 (row 2 j) k))
          (fun k => x4 (ix2 (row 2 j) k)) (x5 (ix1 (row 2 j)) + x6 (ix1 (row 2 j))) := by
    rw [val_main_v16_apply]
    refine (congrArg (val_main_v13 (F := Ideal) x0 x1 x3 x4 x5 x6) ?_).trans (gates1 x0 x1 x3 x4 x5 x6 (row 2 j))
    funext a
    apply Fin.ext
    match a with
    | ⟨0, _⟩ => rfl
    | ⟨1, _⟩ => show 8192 + j.val = 2 * 4096 + j.val; omega
  have g3 : val_main_v17 (F := Ideal) x0 x1 x3 x4 x5 x6 (ix2 0 j)
      = gateRow (fun k : Fin 512 => x0 (ix1 k)) (fun k : Fin 4096 => x1 (ix3 0 0 k)) (fun k => x3 (ix2 (row 3 j) k))
          (fun k => x4 (ix2 (row 3 j) k)) (x5 (ix1 (row 3 j)) + x6 (ix1 (row 3 j))) := by
    rw [val_main_v17_apply]
    refine (congrArg (val_main_v13 (F := Ideal) x0 x1 x3 x4 x5 x6) ?_).trans (gates1 x0 x1 x3 x4 x5 x6 (row 3 j))
    funext a
    apply Fin.ext
    match a with
    | ⟨0, _⟩ => rfl
    | ⟨1, _⟩ => show 12288 + j.val = 3 * 4096 + j.val; omega
  have hc : val_main_v4 (F := Ideal) x2 (ix2 0 j) = x2 (ix3 0 0 j) := by
    rw [val_main_v4_apply, val_main_v3_apply]
    exact congrArg x2 (funext fun a => Fin.ext (by
      match a with
      | ⟨0, _⟩ => rfl
      | ⟨1, _⟩ => rfl
      | ⟨2, _⟩ => show (0 * 4096 + j.val) % 4096 = j.val; omega))
  simp only [val_main_v41_apply, val_main_v39_apply, val_main_v40_apply, val_main_v37_apply, val_main_v35_apply, val_main_v34_apply, val_main_v33_apply, val_main_v24_apply, val_main_v32_apply, val_main_v23_apply, val_main_v21_apply, val_main_v19_apply, val_main_v18_apply, val_main_v30_apply, val_main_v28_apply, val_main_v26_apply, val_main_v25_apply, val_main_v31_apply,
    Ideal.mulf_def, Ideal.addf_def, Ideal.hostDivf_def, Ideal.hostUnary_exp_def, Ideal.hostUnary_tanh_def, Ideal.hostNegf_def, Ideal.negf_def]
  rw [c20, c22, c27, c29, c36, c38, g0, g1, g2, g3, hc, logistic_spelt, logistic_spelt, logistic_spelt]
  rfl

/-! ## Cell 2 -/

/-- Column r of the second cell's four gates' pre-activations: the reference adds each bias right after its product. -/
theorem gates2 (x0 : (⟨S512, .f32⟩ : BufTy).Contents (Elt Ideal)) (x1 : (⟨S2x1x4096, .f32⟩ : BufTy).Contents (Elt Ideal)) (x2 : (⟨S2x1x4096, .f32⟩ : BufTy).Contents (Elt Ideal)) (x3 : (⟨S16384x512, .f32⟩ : BufTy).Contents (Elt Ideal)) (x4 : (⟨S16384x4096, .f32⟩ : BufTy).Contents (Elt Ideal)) (x5 : (⟨S16384, .f32⟩ : BufTy).Contents (Elt Ideal)) (x6 : (⟨S16384, .f32⟩ : BufTy).Contents (Elt Ideal)) (x7 : (⟨S16384x4096, .f32⟩ : BufTy).Contents (Elt Ideal)) (x8 : (⟨S16384x4096, .f32⟩ : BufTy).Contents (Elt Ideal)) (x9 : (⟨S16384, .f32⟩ : BufTy).Contents (Elt Ideal)) (x10 : (⟨S16384, .f32⟩ : BufTy).Contents (Elt Ideal)) (r : Fin 16384) :
    val_main_v54 (F := Ideal) x0 x1 x2 x3 x4 x5 x6 x7 x8 x9 x10 (ix2 0 r)
      = gateRow (fun k : Fin 4096 => val_main_v41 (F := Ideal) x0 x1 x2 x3 x4 x5 x6 (ix2 0 k)) (fun k : Fin 4096 => x1 (ix3 1 0 k)) (fun k => x7 (ix2 r k))
          (fun k => x8 (ix2 r k)) (x9 (ix1 r) + x10 (ix1 r)) := by
  rw [← gateRow_split]
  show ((val_main_v47 (F := Ideal) x0 x1 x2 x3 x4 x5 x6 x7 (ix2 0 r) + val_main_v48 (F := Ideal) x9 (ix2 0 r)) + val_main_v51 (F := Ideal) x1 x8 (ix2 0 r)) + val_main_v53 (F := Ideal) x10 (ix2 0 r) = _
  rw [val_main_v47_apply, val_main_v51_apply, val_main_v48_apply, val_main_v53_apply]
  refine congrArg₂ (· + ·) (congrArg₂ (· + ·) (congrArg₂ (· + ·) (Finset.sum_congr rfl fun k _ => ?_) ?_)
    (Finset.sum_congr rfl fun k _ => ?_)) ?_
  · have hk := k.isLt
    rw [val_main_v46_apply]
    exact congrArg₂ (· * ·)
      (congrArg (val_main_v41 (F := Ideal) x0 x1 x2 x3 x4 x5 x6) (funext fun a => Fin.ext (by
        match a with
        | ⟨0, _⟩ => rfl
        | ⟨1, _⟩ => rfl)))
      (congrArg x7 (funext fun a => Fin.ext (by
        match a with
        | ⟨0, _⟩ => rfl
        | ⟨1, _⟩ => rfl)))
  · exact congrArg x9 (funext fun a => Fin.ext (by
      match a with
      | ⟨0, _⟩ => rfl))
  · have hk := k.isLt
    rw [val_main_v43_apply, val_main_v42_apply, val_main_v50_apply]
    exact congrArg₂ (· * ·)
      (congrArg x1 (funext fun a => Fin.ext (by
        match a with
        | ⟨0, _⟩ => rfl
        | ⟨1, _⟩ => rfl
        | ⟨2, _⟩ => show (0 * 4096 + k.val) % 4096 = k.val; omega)))
      (congrArg x8 (funext fun a => Fin.ext (by
        match a with
        | ⟨0, _⟩ => rfl
        | ⟨1, _⟩ => rfl)))
  · exact congrArg x10 (funext fun a => Fin.ext (by
      match a with
      | ⟨0, _⟩ => rfl))

/-- Unit j of the second cell's output row. -/
theorem h2_ref (x0 : (⟨S512, .f32⟩ : BufTy).Contents (Elt Ideal)) (x1 : (⟨S2x1x4096, .f32⟩ : BufTy).Contents (Elt Ideal)) (x2 : (⟨S2x1x4096, .f32⟩ : BufTy).Contents (Elt Ideal)) (x3 : (⟨S16384x512, .f32⟩ : BufTy).Contents (Elt Ideal)) (x4 : (⟨S16384x4096, .f32⟩ : BufTy).Contents (Elt Ideal)) (x5 : (⟨S16384, .f32⟩ : BufTy).Contents (Elt Ideal)) (x6 : (⟨S16384, .f32⟩ : BufTy).Contents (Elt Ideal)) (x7 : (⟨S16384x4096, .f32⟩ : BufTy).Contents (Elt Ideal)) (x8 : (⟨S16384x4096, .f32⟩ : BufTy).Contents (Elt Ideal)) (x9 : (⟨S16384, .f32⟩ : BufTy).Contents (Elt Ideal)) (x10 : (⟨S16384, .f32⟩ : BufTy).Contents (Elt Ideal)) (j : Fin 4096) :
    val_main_v82 (F := Ideal) x0 x1 x2 x3 x4 x5 x6 x7 x8 x9 x10 (ix2 0 j)
      = lstmH (fun k : Fin 4096 => val_main_v41 (F := Ideal) x0 x1 x2 x3 x4 x5 x6 (ix2 0 k)) (fun k : Fin 4096 => x1 (ix3 1 0 k)) (fun j : Fin 4096 => x2 (ix3 1 0 j))
          (fun r k => x7 (ix2 r k)) (fun r k => x8 (ix2 r k)) (fun r => x9 (ix1 r)) (fun r => x10 (ix1 r)) j := by
  have hj := j.isLt
  have c20 : val_main_v61 (F := Ideal) (ix2 0 j) = Ideal.ofBits .f32 0x3F800000#32 := by
    rw [val_main_v61_apply]; rfl
  have c22 : val_main_v63 (F := Ideal) (ix2 0 j) = Ideal.ofBits .f32 0x3F800000#32 := by
    rw [val_main_v63_apply]; rfl
  have c27 : val_main_v68 (F := Ideal) (ix2 0 j) = Ideal.ofBits .f32 0x3F800000#32 := by
    rw [val_main_v68_apply]; rfl
  have c29 : val_main_v70 (F := Ideal) (ix2 0 j) = Ideal.ofBits .f32 0x3F800000#32 := by
    rw [val_main_v70_apply]; rfl
  have c36 : val_main_v77 (F := Ideal) (ix2 0 j) = Ideal.ofBits .f32 0x3F800000#32 := by
    rw [val_main_v77_apply]; rfl
  have c38 : val_main_v79 (F := Ideal) (ix2 0 j) = Ideal.ofBits .f32 0x3F800000#32 := by
    rw [val_main_v79_apply]; rfl
  have g0 : val_main_v55 (F := Ideal) x0 x1 x2 x3 x4 x5 x6 x7 x8 x9 x10 (ix2 0 j)
      = gateRow (fun k : Fin 4096 => val_main_v41 (F := Ideal) x0 x1 x2 x3 x4 x5 x6 (ix2 0 k)) (fun k : Fin 4096 => x1 (ix3 1 0 k)) (fun k => x7 (ix2 (row 0 j) k))
          (fun k => x8 (ix2 (row 0 j) k)) (x9 (ix1 (row 0 j)) + x10 (ix1 (row 0 j))) := by
    rw [val_main_v55_apply]
    refine (congrArg (val_main_v54 (F := Ideal) x0 x1 x2 x3 x4 x5 x6 x7 x8 x9 x10) ?_).trans (gates2 x0 x1 x2 x3 x4 x5 x6 x7 x8 x9 x10 (row 0 j))
    funext a
    apply Fin.ext
    match a with
    | ⟨0, _⟩ => rfl
    | ⟨1, _⟩ => show j.val = 0 * 4096 + j.val; omega
  have g1 : val_main_v56 (F := Ideal) x0 x1 x2 x3 x4 x5 x6 x7 x8 x9 x10 (ix2 0 j)
      = gateRow (fun k : Fin 4096 => val_main_v41 (F := Ideal) x0 x1 x2 x3 x4 x5 x6 (ix2 0 k)) (fun k : Fin 4096 => x1 (ix3 1 0 k)) (fun k => x7 (ix2 (row 1 j) k))
          (fun k => x8 (ix2 (row 1 j) k)) (x9 (ix1 (row 1 j)) + x10 (ix1 (row 1 j))) := by
    rw [val_main_v56_apply]
    refine (congrArg (val_main_v54 (F := Ideal) x0 x1 x2 x3 x4 x5 x6 x7 x8 x9 x10) ?_).trans (gates2 x0 x1 x2 x3 x4 x5 x6 x7 x8 x9 x10 (row 1 j))
    funext a
    apply Fin.ext
    match a with
    | ⟨0, _⟩ => rfl
    | ⟨1, _⟩ => show 4096 + j.val = 1 * 4096 + j.val; omega
  have g2 : val_main_v57 (F := Ideal) x0 x1 x2 x3 x4 x5 x6 x7 x8 x9 x10 (ix2 0 j)
      = gateRow (fun k : Fin 4096 => val_main_v41 (F := Ideal) x0 x1 x2 x3 x4 x5 x6 (ix2 0 k)) (fun k : Fin 4096 => x1 (ix3 1 0 k)) (fun k => x7 (ix2 (row 2 j) k))
          (fun k => x8 (ix2 (row 2 j) k)) (x9 (ix1 (row 2 j)) + x10 (ix1 (row 2 j))) := by
    rw [val_main_v57_apply]
    refine (congrArg (val_main_v54 (F := Ideal) x0 x1 x2 x3 x4 x5 x6 x7 x8 x9 x10) ?_).trans (gates2 x0 x1 x2 x3 x4 x5 x6 x7 x8 x9 x10 (row 2 j))
    funext a
    apply Fin.ext
    match a with
    | ⟨0, _⟩ => rfl
    | ⟨1, _⟩ => show 8192 + j.val = 2 * 4096 + j.val; omega
  have g3 : val_main_v58 (F := Ideal) x0 x1 x2 x3 x4 x5 x6 x7 x8 x9 x10 (ix2 0 j)
      = gateRow (fun k : Fin 4096 => val_main_v41 (F := Ideal) x0 x1 x2 x3 x4 x5 x6 (ix2 0 k)) (fun k : Fin 4096 => x1 (ix3 1 0 k)) (fun k => x7 (ix2 (row 3 j) k))
          (fun k => x8 (ix2 (row 3 j) k)) (x9 (ix1 (row 3 j)) + x10 (ix1 (row 3 j))) := by
    rw [val_main_v58_apply]
    refine (congrArg (val_main_v54 (F := Ideal) x0 x1 x2 x3 x4 x5 x6 x7 x8 x9 x10) ?_).trans (gates2 x0 x1 x2 x3 x4 x5 x6 x7 x8 x9 x10 (row 3 j))
    funext a
    apply Fin.ext
    match a with
    | ⟨0, _⟩ => rfl
    | ⟨1, _⟩ => show 12288 + j.val = 3 * 4096 + j.val; omega
  have hc : val_main_v45 (F := Ideal) x2 (ix2 0 j) = x2 (ix3 1 0 j) := by
    rw [val_main_v45_apply, val_main_v44_apply]
    exact congrArg x2 (funext fun a => Fin.ext (by
      match a with
      | ⟨0, _⟩ => rfl
      | ⟨1, _⟩ => rfl
      | ⟨2, _⟩ => show (0 * 4096 + j.val) % 4096 = j.val; omega))
  simp only [val_main_v82_apply, val_main_v80_apply, val_main_v81_apply, val_main_v78_apply, val_main_v76_apply, val_main_v75_apply, val_main_v74_apply, val_main_v65_apply, val_main_v73_apply, val_main_v64_apply, val_main_v62_apply, val_main_v60_apply, val_main_v59_apply, val_main_v71_apply, val_main_v69_apply, val_main_v67_apply, val_main_v66_apply, val_main_v72_apply,
    Ideal.mulf_def, Ideal.addf_def, Ideal.hostDivf_def, Ideal.hostUnary_exp_def, Ideal.hostUnary_tanh_def, Ideal.hostNegf_def, Ideal.negf_def]
  rw [c20, c22, c27, c29, c36, c38, g0, g1, g2, g3, hc, logistic_spelt, logistic_spelt, logistic_spelt]
  rfl

end Cert.ReferenceIdeal.Hand

end
-- ==== Proof.Bridge.lean ====
/-
  The two programs compute one function.

  Both cells' output rows are, unit by unit, the cell function of the same argument entries — on the kernel side read off
  the two grids and the host reshapes, on the reference side read off its products, slices and pointwise operations —
  so the rows are equal as arrays. The two results are the same head (a row against a weight row plus a bias; and one
  over one plus the exponential of minus that) applied to the second cell's output row in both programs.
-/
import proofs.«125027_j23545010717534_2_alg».proof.Proof.KernelHost
import proofs.«125027_j23545010717534_2_alg».proof.Proof.RefRead

set_option maxRecDepth 16384

noncomputable section

namespace Cert.Bridge

open Idealize.ShloMosaic Idealize.ShloMosaic.TcCoe Idealize.ShloMosaic.ValueIdx Idealize.SL.Sem
open Cert.ReferenceIdeal.Read

variable (m : (ℓ : Loc Cert.KernelIdeal.nD Cert.KernelIdeal.τ Cert.KernelIdeal.sig) → Buf (Elt Ideal) ℓ)
  (ρ : Dev Cert.KernelIdeal.nD → PrngReg)

/-- The first cell's output row is the same array in both programs. -/
theorem h1_eq (c : Dev Cert.KernelIdeal.nD) :
    Cert.KernelIdeal.Host.h1 m ρ c = val_main_v41 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  funext i
  obtain ⟨p, j, rfl⟩ : ∃ (p : Fin 1) (j : Fin 4096), i = ix2 p j := ⟨i 0, i 1, eq_ix2 i⟩
  obtain rfl : p = 0 := Subsingleton.elim _ _
  rw [Cert.KernelIdeal.Host.h1_apply, Cert.ReferenceIdeal.Hand.h1_ref]

/-- The second cell's output row is the same array in both programs. -/
theorem h2_eq (c : Dev Cert.KernelIdeal.nD) :
    Cert.KernelIdeal.Host.h2 m ρ c = val_main_v82 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  funext i
  obtain ⟨p, j, rfl⟩ : ∃ (p : Fin 1) (j : Fin 4096), i = ix2 p j := ⟨i 0, i 1, eq_ix2 i⟩
  obtain rfl : p = 0 := Subsingleton.elim _ _
  rw [Cert.KernelIdeal.Host.h2_apply, Cert.ReferenceIdeal.Hand.h2_ref, h1_eq m ρ c]

/-- The gated result. -/
theorem out_d_eq (c : Dev Cert.KernelIdeal.nD) :
    val_main_v96 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg13)) (m ((c : Thread Cert.KernelIdeal.nD Cert.KernelIdeal.τ).loc Cert.KernelIdeal.main_arg14))
      = Cert.KernelIdeal.Gen.W5 m ρ c (Proc.devRef .tc Cert.KernelIdeal.main_v32) := by
  rw [Cert.KernelIdeal.Host.out_d, h2_eq m ρ c]
  rfl

/-- The linear result. -/
theorem out_l_eq (c : Dev Cert.KernelIdeal.nD) :
    val_main_v86 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12))
      = Cert.KernelIdeal.Gen.W5 m ρ c (Proc.devRef .tc Cert.KernelIdeal.main_v22) := by
  rw [Cert.KernelIdeal.Host.out_l, h2_eq m ρ c]
  rfl

end Cert.Bridge

end
-- ==== Proof.lean ====
/-
  A two-layer LSTM step followed by two small heads, as a kernel program and as a plain reference.

  The kernel program runs each LSTM cell as a grid over blocks of units: a point multiplies the input row and the
  hidden row (both rounded to a narrower format on the way in — the identity on extended reals) by its rows of the
  four gates' weights, adds the pre-added biases, and stores σ(o)·tanh(σ(f)·c + σ(i)·tanh(g)) for its units; the host
  reshapes the parameters before each grid and applies the two heads after the second. The reference computes the same
  cells with whole-array products, adding each bias after its product, and applies the same heads.

  Over the extended reals every step agrees: a change of format is the identity, a product into a zero accumulator is the
  plain sum, the logistic function is one over one plus the exponential of the negation on both sides, and the two
  groupings of the bias sum agree because addition is commutative and associative — no cancellation, so no finiteness
  of the inputs is needed. The frames of the two kernel programs are the generated ones; the reference's frame is its
  generated run with the results dropped; no operation was rewritten when the kernel program was idealized.
-/
import proofs.«125027_j23545010717534_2_alg».proof.Defs
import proofs.«125027_j23545010717534_2_alg».proof.Proof.Gen.Kernel
import proofs.«125027_j23545010717534_2_alg».proof.Proof.Gen.Kernel.Skeleton
import proofs.«125027_j23545010717534_2_alg».proof.Proof.Gen.Kernel.Launch
import proofs.«125027_j23545010717534_2_alg».proof.Proof.Gen.Kernel.Points
import proofs.«125027_j23545010717534_2_alg».proof.Proof.Gen.Kernel.Frame
import proofs.«125027_j23545010717534_2_alg».proof.Proof.Gen.KernelIdeal
import proofs.«125027_j23545010717534_2_alg».proof.Proof.Gen.KernelIdeal.Skeleton
import proofs.«125027_j23545010717534_2_alg».proof.Proof.Gen.KernelIdeal.Launch
import proofs.«125027_j23545010717534_2_alg».proof.Proof.Gen.KernelIdeal.Points
import proofs.«125027_j23545010717534_2_alg».proof.Proof.Gen.KernelIdeal.Frame
import proofs.«125027_j23545010717534_2_alg».proof.Proof.Gen.ReferenceIdeal
import proofs.«125027_j23545010717534_2_alg».proof.Proof.Gen.ReferenceIdeal.Run
import proofs.«125027_j23545010717534_2_alg».proof.Proof.Gen.ReferenceIdeal.Read
import proofs.«125027_j23545010717534_2_alg».proof.Proof.Gen.Pre_finite_inputs
import proofs.«125027_j23545010717534_2_alg».proof.Proof.KernelRun
import proofs.«125027_j23545010717534_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Run from memories that agree on the arguments, both programs end with the two heads of the second cell's output
    row, which is one function of the arguments. -/
theorem algebraic : Cert.algebraic_KernelIdeal_ReferenceIdeal := by
  intro m ρ m' ρ' _ hagree
  refine ⟨fun c => Cert.KernelIdeal.Gen.W5 m ρ c (Proc.devRef .tc Cert.KernelIdeal.main_v32),
    fun c => Cert.KernelIdeal.Gen.W5 m ρ c (Proc.devRef .tc Cert.KernelIdeal.main_v22),
    Cert.KernelIdeal.Hand.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v96_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.2.2.1, (hagree c).2.2.2.2.2.2.2.2.2.2.2.2.2.2]
    exact Cert.Bridge.out_d_eq m ρ c
  · rw [Cert.ReferenceIdeal.Read.val_main_v86_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1]
    exact Cert.Bridge.out_l_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
